-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S128 .f32) (main_arg5 : FVec F S128x32 .f32) (main_arg6 : FVec F S128x32 .f32) (main_arg7 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg5
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S128x32 .f32 := Host.absf main_arg6
  let main_cst_10 : FVec F S_ .f32 := constant S_ .f32 0x7F800000#32
  let main_v30 : FVec F S128x32 .f32 := broadcastInDim S128x32 ![] bcast_S_S128x32 main_cst_10
  let main_v31 : IVec S128x32 1 := cmpf .olt main_v29 main_v30
  let main_c_11 : IVec S_ 1 := constantI S_ 1 1#1
  let main_v32 : IVec S_ 1 := (fun x v => Host.reduce IntOp.andi x v reducesTo_S128x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128x128 .f32) (main_arg4 : FVec F S128 .f32) (main_arg5 : FVec F S128x32 .f32) (main_arg6 : FVec F S128x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x128 : Shape := ⟨2, ![1, 128]⟩
abbrev S1x32 : Shape := ⟨2, ![1, 32]⟩
abbrev S10000x32 : Shape := ⟨2, ![10000, 32]⟩
abbrev S400x10000 : Shape := ⟨2, ![400, 10000]⟩
abbrev S400x32 : Shape := ⟨2, ![400, 32]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S128x32, .f32⟩
  | .hbm, ⟨7, _⟩ => ⟨S32, .f32⟩
  | .hbm, ⟨8, _⟩ => ⟨S1x128, .f32⟩
  | .hbm, ⟨9, _⟩ => ⟨S1x32, .f32⟩
  | .hbm, ⟨10, _⟩ => ⟨S10000x32, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S128x128, .f32⟩
  | .local _ .vmem, ⟨5, _⟩ => ⟨S1x128, .f32⟩
  | .local _ .vmem, ⟨6, _⟩ => ⟨S128x32, .f32⟩
  | .local _ .vmem, ⟨7, _⟩ => ⟨S128x32, .f32⟩
  | .local _ .vmem, ⟨8, _⟩ => ⟨S1x32, .f32⟩
  | .local _ .vmem, ⟨9, _⟩ => ⟨S400x32, .f32⟩
  | .local _ .vmem, ⟨10, _⟩ => ⟨S400x32, .f32⟩
  | .local _ .vmem, ⟨11, _⟩ => ⟨S10000x32, .f32⟩
  | .local _ .vmem, ⟨12, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![2, 25], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg1 : BitVec 32 := BitVec.ofNat 32 (i 1).val
  let c400_i32 : BitVec 32 := 400#32
  let v6 : BitVec 32 := Scalar.muli arg1 c400_i32
  let v10 : Index := Scalar.indexCast v6
  let c0_5 : Index := 0#32
  ![v10.toNat, 0]
def k0_off2 (i : grid0.Coords) : Fin 2 → Nat :=
  let arg1 : BitVec 32 := BitVec.ofNat 32 (i 1).val
  let c400_i32 : BitVec 32 := 400#32
  let v6 : BitVec 32 := Scalar.muli arg1 c400_i32
  let v25 : Index := Scalar.indexCast v6
  let c0_18 : Index := 0#32
  ![v25.toNat, 0]
def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_off3 (i : grid0.Coords) : Fin 2 → Nat :=
  let c24_i32 : BitVec 32 := 24#32
  let arg1 : BitVec 32 := BitVec.ofNat 32 (i 1).val
  let v6 : BitVec 32 := Scalar.subi c24_i32 arg1
  let c400_i32 : BitVec 32 := 400#32
  let v7 : BitVec 32 := Scalar.muli v6 c400_i32
  let v8 : Index := Scalar.indexCast v7
  let c0 : Index := 0#32
  ![v8.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let c24_i32_0 : BitVec 32 := 24#32
  let v2 : BitVec 32 := Scalar.select v0 c24_i32_0 v1
  let c0_i32_1 : BitVec 32 := 0#32
  let c0_i32_2 : BitVec 32 := 0#32
  ![v2.toNat, c0_i32_1.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S128_S1x128 : S128.ShapeCasts S1x128
  shapeCasts_S32_S1x32 : S32.ShapeCasts S1x32
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x32_S128x32_0_0 : ∀ a, (![0, 0] : Fin 2 → Nat) a + S128x32.size a ≤ S128x32.size a
  h_S128x32 : 0 < S128x32.numel
  h_S400x32 : 0 < S400x32.numel
  shapeCasts_S400x32_S400x32 : S400x32.ShapeCasts S400x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S400x32 : S1x32.Broadcasts S400x32
  inb_S10000x32_S10000x32_0_0 : ∀ a, (![0, 0] : Fin 2 → Nat) a + S10000x32.size a ≤ S10000x32.size a
  h_S10000x32 : 0 < S10000x32.numel
  reduces_S400x32_S400 : S400x32.Reduces [1] S400
  shapeCasts_S400_S400x1 : S400.ShapeCasts S400x1
  broadcasts_S400x1_S400x32 : S400x1.Broadcasts S400x32
  inb_S400x32_S400x32_0_0 : ∀ a, (![0, 0] : Fin 2 → Nat) a + S400x32.size a ≤ S400x32.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x32_S400x32_1_0_0_1_n_n_wf : DotDims.WF S400x128 S128x32 S400x32 [1] [0] [0] [1] [] []
  dot_S400x10000_S10000x32_S400x32_1_0_0_1_n_n_wf : DotDims.WF S400x10000 S10000x32 S400x32 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off2_inb : ∀ i : grid0.Coords, ∀ (k0_h1 : k0_cond1 i = 1#1), ∀ a, (k0_off2 i) a + S400x32.size a ≤ S10000x32.size a
  k0_off3_inb : ∀ i : grid0.Coords, ∀ (k0_h2 : k0_cond2 i = 1#1), ∀ a, (k0_off3 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x32.size a ≤ S128x32.size a
  hwx0_5 : ∀ i : grid0.Coords, EltTy.bits .f32 = 32 ∨ (Rect.block (s := S128x32) S128x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x32.size a ≤ S128x32.size a
  hwx0_6 : ∀ i : grid0.Coords, EltTy.bits .f32 = 32 ∨ (Rect.block (s := S128x32) S128x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x32.size a ≤ S10000x32.size a
  hwx0_8 : ∀ i : grid0.Coords, EltTy.bits .f32 = 32 ∨ (Rect.block (s := S10000x32) S400x32.size (cc0_transform_8 i) (hinb0_8 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x32_S400x32_1_0_0_1_n_n : DotDims S400x128 S128x32 S400x32 where
  lhsContracting := [1]
  rhsContracting := [0]
  lhsNonContracting := [0]
  rhsNonContracting := [1]
  lhsBatch := []
  rhsBatch := []
  wf := dot_S400x128_S128x32_S400x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S400x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x128 : Shape := ⟨2, ![1, 128]⟩
abbrev S_ : Shape := ⟨0, ![]⟩
abbrev S10000x32 : Shape := ⟨2, ![10000, 32]⟩
abbrev S1x32 : Shape := ⟨2, ![1, 32]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x32, .f32⟩
  | .hbm, ⟨6, _⟩ => ⟨S128x32, .f32⟩
  | .hbm, ⟨7, _⟩ => ⟨S32, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S1x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x32, .f32⟩
  | .hbm, ⟨19, _⟩ => ⟨S10000x128, .f32⟩
  | .hbm, ⟨20, _⟩ => ⟨S10000x32, .f32⟩
  | .hbm, ⟨21, _⟩ => ⟨S10000x32, .f32⟩
  | .hbm, ⟨22, _⟩ => ⟨S1x32, .f32⟩
  | .hbm, ⟨23, _⟩ => ⟨S10000x32, .f32⟩
  | .hbm, ⟨24, _⟩ => ⟨S10000x32, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x32, .f32⟩
  | .hbm, ⟨32, _⟩ => ⟨S10000x32, .f32⟩
  | .hbm, ⟨33, _⟩ => ⟨S10000x32, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x32, .f32⟩
  | .hbm, ⟨39, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  reducesTo_S10000x32_S10000_d1 : S10000x32.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x32_0_1 : S10000x1.BroadcastsInDim S10000x32 (![0, 1] : Fin 2 → Fin S10000x32.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x32_S10000x32_1_0_0_1_n_n_wf : DotDims.WF S10000x128 S128x32 S10000x32 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

class Facts : Prop extends Facts₀ where

variable [Facts]
-- ==== Proof.KB.Setup.lean ====
/-
  What the two phases of the fused two-layer graph convolution share, read off the grid of 2 x 25 points: the first 25
  points (phase 0) each fill rows [400 t, 400 t + 400) of the two scratch arrays; the last 25 (phase 1) each produce the
  output block of rows [400 (49 - t), 400 (49 - t) + 400).  Here: which points are in which phase, where the output window
  rests and where it is written back, the row offsets of each point in closed form, and the staging memrefs by name.
-/
import proofs.«111254_g31370441130263_cont_sun_m_318_18_alg».proof.Proof.Gen.Kernel.Frame
import proofs.«111254_g31370441130263_cont_sun_m_318_18_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in phase 0 (the branch that fills the scratch rows is taken). -/
abbrev condA (i : grid0.Coords) : Prop := k0_cond1 i = 1#1
/-- The point is in phase 1 (the branch that stores the output block is taken). -/
abbrev condB (i : grid0.Coords) : Prop := k0_cond2 i = 1#1

/-- Phase 0 is the first 25 points. -/
theorem hcondA : ∀ t : Fin cfg0.N, condA (grid0.coords t) ↔ t.val < 25 :=
  (by decide +kernel : ∀ t : Fin grid0.N, condA (grid0.coords t) ↔ t.val < 25)
/-- Phase 1 is the last 25 points. -/
theorem hcondB : ∀ t : Fin cfg0.N, condB (grid0.coords t) ↔ 25 ≤ t.val :=
  (by decide +kernel : ∀ t : Fin grid0.N, condB (grid0.coords t) ↔ 25 ≤ t.val)

theorem N50 : cfg0.N = 50 := N_0

/-! The input windows never rest. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-- The output window rests through phase 0 and is not written back there; -/
theorem idle8 : ∀ t : Fin cfg0.N, t.val < 25 → cfg0.idle 8 (grid0.coords t) = true :=
  (by decide +kernel : ∀ t : Fin grid0.N, t.val < 25 → cfg0.idle 8 (grid0.coords t) = true)
theorem noFlush8 : ∀ t : Fin cfg0.N, t.val < 25 → (cfg0.win 8).flush t = false :=
  (by decide +kernel : ∀ t : Fin grid0.N, t.val < 25 → win0_8.flush t = false)
/-- in phase 1 it is live and written back at every point. -/
theorem live8 : ∀ t : Fin cfg0.N, 25 ≤ t.val → cfg0.idle 8 (grid0.coords t) = false :=
  (by decide +kernel : ∀ t : Fin grid0.N, 25 ≤ t.val → cfg0.idle 8 (grid0.coords t) = false)
theorem flush8 : ∀ t : Fin cfg0.N, 25 ≤ t.val → (cfg0.win 8).flush t = true :=
  (by decide +kernel : ∀ t : Fin grid0.N, 25 ≤ t.val → win0_8.flush t = true)

/-! The row offsets of a point, in closed form. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
theorem off2_eq : ∀ t : Fin cfg0.N, t.val < 25 → k0_off2 (grid0.coords t) = ![400 * t.val, 0] :=
  (by decide +kernel : ∀ t : Fin grid0.N, t.val < 25 → k0_off2 (grid0.coords t) = ![400 * t.val, 0])
theorem off3_eq : ∀ t : Fin cfg0.N, 25 ≤ t.val → k0_off3 (grid0.coords t) = ![400 * (49 - t.val), 0] :=
  (by decide +kernel : ∀ t : Fin grid0.N, 25 ≤ t.val → k0_off3 (grid0.coords t) = ![400 * (49 - t.val), 0])

/-! The staging memref each window is on at a point, and the two scratch arrays. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x32 .f32 := win0_8.stage (cfg0.slots t 8)
abbrev hs8 (t : Fin cfg0.N) : (ms8 t).IsWhole := hstage0_8 ((cfg0.slots t 8).cast nbuf0_8)
abbrev scG : Memref sig .tc .vmem S10000x32 .f32 := Memref.whole cc0_scratch0
abbrev scH : Memref sig .tc .vmem S10000x32 .f32 := Memref.whole cc0_scratch1

/-- What the region hands the body beside the windows: the two scratch arrays, each at some contents, and the generator
    register. -/
theorem PhiA_eq (c : Dev nD) :
    (Pipeline.ΦA spec0 c : sProp 𝕄)
      = iprop(iprop((∃ d, owns (c : Thread nD τ) scG fullShare d) ∗ (∃ d, owns (c : Thread nD τ) scH fullShare d)) ∗ (∃ r, prngReg c r)) := by
  unfold Pipeline.ΦA; rw [scopedRest0_eq]; simp only [scG, scH, owns_whole]; try rfl

end Cert.Kernel.Hand

end
-- ==== Proof.KB.RunA.lean ====
/-
  Phase 0 at one grid point, run symbolically: the body loads the adjacency block, the whole feature matrix, the point's
  400 feature rows and the weights, and stores two 400 x 32 payloads into rows [off, off + 400) of the two scratch arrays,
  leaving every other row of them, the inputs and the output window's buffer as it found them.
-/
import proofs.«111254_g31370441130263_cont_sun_m_318_18_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What phase 0 stores into the first scratch array: the rows of g = relu(x W1_0 + (adj x) W1_1 + b1) W2_1 of this point. -/
def payG (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : FVec F S400x32 .f32 :=
  k0_pay3 (View.readAt (Elt F) arg2.view (Rect.unit ![0, 0] S400x10000.size inb_S400x10000_S400x10000_0_0).toLoadRect (harg2.unread x0)) (View.readAt (Elt F) arg3.view (Rect.unit ![0, 0] S10000x128.size inb_S10000x128_S10000x128_0_0).toLoadRect (harg3.unread x1)) (View.readAt (Elt F) arg3.view (Rect.unit (s := S10000x128) (k0_off1 i) S400x128.size (k0_off1_inb i hc0)).toLoadRect (harg3.unread x1)) (View.readAt (Elt F) arg4.view (Rect.unit ![0, 0] S128x128.size inb_S128x128_S128x128_0_0).toLoadRect (harg4.unread x2)) (View.readAt (Elt F) arg5.view (Rect.unit ![0, 0] S128x128.size inb_S128x128_S128x128_0_0).toLoadRect (harg5.unread x3)) (View.readAt (Elt F) arg6.view (Rect.unit ![0, 0] S1x128.size inb_S1x128_S1x128_0_0).toLoadRect (harg6.unread x4)) (View.readAt (Elt F) arg8.view (Rect.unit ![0, 0] S128x32.size inb_S128x32_S128x32_0_0).toLoadRect (harg8.unread x6))

/-- The store itself: that payload through the rectangle of the point's rows. -/
def pieceG (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : View.Piece (Elt F) S10000x32 .f32 :=
  ⟨Rect.unit (s := S10000x32) (k0_off2 i) S400x32.size (k0_off2_inb i hc0), payG i hc0 arg2 harg2 arg3 harg3 arg4 harg4 arg5 harg5 arg6 harg6 arg7 harg7 arg8 harg8 arg9 harg9 x0 x1 x2 x3 x4 x5 x6 x7⟩

/-- What phase 0 stores into the second scratch array: the rows of hw = relu(…) W2_0 + b2 of this point. -/
def payH (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : FVec F S400x32 .f32 :=
  k0_pay4 (View.readAt (Elt F) arg2.view (Rect.unit ![0, 0] S400x10000.size inb_S400x10000_S400x10000_0_0).toLoadRect (harg2.unread x0)) (View.readAt (Elt F) arg3.view (Rect.unit ![0, 0] S10000x128.size inb_S10000x128_S10000x128_0_0).toLoadRect (harg3.unread x1)) (View.readAt (Elt F) arg3.view (Rect.unit (s := S10000x128) (k0_off1 i) S400x128.size (k0_off1_inb i hc0)).toLoadRect (harg3.unread x1)) (View.readAt (Elt F) arg4.view (Rect.unit ![0, 0] S128x128.size inb_S128x128_S128x128_0_0).toLoadRect (harg4.unread x2)) (View.readAt (Elt F) arg5.view (Rect.unit ![0, 0] S128x128.size inb_S128x128_S128x128_0_0).toLoadRect (harg5.unread x3)) (View.readAt (Elt F) arg6.view (Rect.unit ![0, 0] S1x128.size inb_S1x128_S1x128_0_0).toLoadRect (harg6.unread x4)) (View.readAt (Elt F) arg7.view (Rect.unit ![0, 0] S128x32.size inb_S128x32_S128x32_0_0).toLoadRect (harg7.unread x5)) (View.readAt (Elt F) arg9.view (Rect.unit ![0, 0] S1x32.size inb_S1x32_S1x32_0_0).toLoadRect (harg9.unread x7))

/-- The store itself: that payload through the rectangle of the point's rows. -/
def pieceH (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : View.Piece (Elt F) S10000x32 .f32 :=
  ⟨Rect.unit (s := S10000x32) (k0_off2 i) S400x32.size (k0_off2_inb i hc0), payH i hc0 arg2 harg2 arg3 harg3 arg4 harg4 arg5 harg5 arg6 harg6 arg7 harg7 arg8 harg8 arg9 harg9 x0 x1 x2 x3 x4 x5 x6 x7⟩

set_option maxHeartbeats 1600000 in
/-- The body at a point of phase 0, on whole staging memrefs holding the inputs' blocks, the output window's buffer at any
    contents `xi8` and the two scratch arrays at `xs0`, `xs1`: it runs to the continuation with the inputs and the output
    buffer untouched and each scratch array overwritten on the point's rows by its payload. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : condA i) (hc1 : ¬condB i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (xi8 : Vec F S400x32 .f32) (xs0 xs1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (arg11.view.loc (c : Thread nD τ) ↦[arg11.view.set]{fullShare} arg11.view.writes (Elt F) (harg11.unread xs0) [pieceG i hc0 arg2 harg2 arg3 harg3 arg4 harg4 arg5 harg5 arg6 harg6 arg7 harg7 arg8 harg8 arg9 harg9 x0 x1 x2 x3 x4 x5 x6 x7])
                ∗ (arg12.view.loc (c : Thread nD τ) ↦[arg12.view.set]{fullShare} arg12.view.writes (Elt F) (harg12.unread xs1) [pieceH i hc0 arg2 harg2 arg3 harg3 arg4 harg4 arg5 harg5 arg6 harg6 arg7 harg7 arg8 harg8 arg9 harg9 x0 x1 x2 x3 x4 x5 x6 x7])) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · unfold pieceG payG; iexact HS0
    unfold pieceH payH; sl_unfold_run_names; iexact HS1

end Cert.Kernel.Hand

end
-- ==== Proof.KB.RunB.lean ====
/-
  Phase 1 at one grid point, run symbolically: the body loads the point's 400 rows of the second scratch array (hw), the
  adjacency block and the whole first scratch array (g), and stores one 400 x 32 payload, log-softmax of hw + adj g row by
  row, over the whole output block; the inputs and both scratch arrays are left as it found them.
-/
import proofs.«111254_g31370441130263_cont_sun_m_318_18_alg».proof.Proof.KB.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What phase 1 stores into the output window's buffer (all of it). -/
def payO (i : grid0.Coords) (hc1 : condB i) (arg2 : Memref sig .tc .vmem S400x10000 .f32) (harg2 : arg2.IsWhole)
    (arg11 : Memref sig .tc .vmem S10000x32 .f32) (harg11 : arg11.IsWhole) (arg12 : Memref sig .tc .vmem S10000x32 .f32) (harg12 : arg12.IsWhole)
    (x0 : Vec F S400x10000 .f32) (xs0 xs1 : Vec F S10000x32 .f32) : FVec F S400x32 .f32 :=
    k0_pay1 (View.readAt (Elt F) arg12.view (Rect.unit (s := S10000x32) (k0_off3 i) S400x32.size (k0_off3_inb i hc1)).toLoadRect (harg12.unread xs1))
      (View.readAt (Elt F) arg2.view (Rect.unit ![0, 0] S400x10000.size inb_S400x10000_S400x10000_0_0).toLoadRect (harg2.unread x0))
      (View.readAt (Elt F) arg11.view (Rect.unit ![0, 0] S10000x32.size inb_S10000x32_S10000x32_0_0).toLoadRect (harg11.unread xs0))

/-- The store itself: that payload through the rectangle of the whole block. -/
def pieceO (i : grid0.Coords) (hc1 : condB i) (arg2 : Memref sig .tc .vmem S400x10000 .f32) (harg2 : arg2.IsWhole)
    (arg11 : Memref sig .tc .vmem S10000x32 .f32) (harg11 : arg11.IsWhole) (arg12 : Memref sig .tc .vmem S10000x32 .f32) (harg12 : arg12.IsWhole)
    (x0 : Vec F S400x10000 .f32) (xs0 xs1 : Vec F S10000x32 .f32) : View.Piece (Elt F) S400x32 .f32 :=
  ⟨Rect.unit (s := S400x32) ![0, 0] S400x32.size inb_S400x32_S400x32_0_0, payO i hc1 arg2 harg2 arg11 harg11 arg12 harg12 x0 xs0 xs1⟩

set_option maxHeartbeats 1600000 in
/-- The body at a point of phase 1, on whole staging memrefs holding the inputs' blocks, the output window's buffer at any
    contents `xi8` and the two scratch arrays at `xs0`, `xs1`: it runs to the continuation with the inputs and both scratch
    arrays untouched and the output buffer overwritten whole by its payload. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : ¬condA i) (hc1 : condB i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (xi8 : Vec F S400x32 .f32) (xs0 xs1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xi8) [pieceO i hc1 arg2 harg2 arg11 harg11 arg12 harg12 x0 xs0 xs1])
                ∗ owns (c : Thread nD τ) arg11 fullShare xs0 ∗ owns (c : Thread nD τ) arg12 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · unfold pieceO payO; iexact H8
    isplitl [HS0]
    · iexists _; isplitr; · ipureintro; exact harg11.read_unread _
      iexact HS0
    iexists _; isplitr; · ipureintro; exact harg12.read_unread _
    iexact HS1

end Cert.Kernel.Hand

end
-- ==== Proof.KB.Data.lean ====
/-
  What the two scratch arrays and the output window hold, point by point.  Row r of the first scratch array is filled at
  point r / 400 of phase 0 with the (r mod 400)-th row of that point's payload g, and is never touched again; likewise
  the second array with hw.  So after n points the rows below 400 min(n, 25) hold their final values (`Inv`), whatever
  the arrays held at launch, and through phase 1 both arrays are complete.  The output block of a phase-1 point is its
  payload of the complete arrays.  The proof data of the pipeline states exactly this.
-/
import proofs.«111254_g31370441130263_cont_sun_m_318_18_alg».proof.Proof.KB.RunA
import proofs.«111254_g31370441130263_cont_sun_m_318_18_alg».proof.Proof.KB.RunB
import Idealize.ShloMosaic.Lib.WritesUnit
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows a point of phase 0 produces -/

/-- The 400 rows of g that point `t` of phase 0 stores, as a function of the windows' blocks there. -/
def gRows (c : Dev nD) (t : Fin cfg0.N) (h : t.val < 25) : FVec F S400x32 .f32 :=
  payG (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)

/-- The 400 rows of hw that point `t` of phase 0 stores. -/
def hRows (c : Dev nD) (t : Fin cfg0.N) (h : t.val < 25) : FVec F S400x32 .f32 :=
  payH (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)

theorem gRows_congr (c : Dev nD) {t t' : Fin cfg0.N} (e : t = t') (h : t.val < 25) (h' : t'.val < 25) :
    gRows m c t h = gRows m c t' h' := by subst e; rfl
theorem hRows_congr (c : Dev nD) {t t' : Fin cfg0.N} (e : t = t') (h : t.val < 25) (h' : t'.val < 25) :
    hRows m c t h = hRows m c t' h' := by subst e; rfl

/-- The point of phase 0 that fills row `(y 0)`: its quotient by 400. -/
def ptOf (y : S10000x32.Idx) : Fin cfg0.N :=
  ⟨(y 0).val / 400, by have := ValueIdx.idx2_lt0 y; rw [N50]; omega⟩
theorem ptOf_lt (y : S10000x32.Idx) : (ptOf y).val < 25 := by
  have := ValueIdx.idx2_lt0 y; show (y 0).val / 400 < 25; omega
/-- and the row's place inside that point's 400 rows. -/
def locOf (y : S10000x32.Idx) : S400x32.Idx :=
  ValueIdx.ix2 ⟨(y 0).val % 400, Nat.mod_lt _ (by norm_num)⟩ ⟨(y 1).val, ValueIdx.idx2_lt1 y⟩

/-- The complete first scratch array, g, entry by entry. -/
def gSpec (c : Dev nD) : Vec F S10000x32 .f32 := fun y => gRows m c (ptOf y) (ptOf_lt y) (locOf y)
/-- The complete second scratch array, hw, entry by entry. -/
def hSpec (c : Dev nD) : Vec F S10000x32 .f32 := fun y => hRows m c (ptOf y) (ptOf_lt y) (locOf y)

/-- After `n` points the rows below `400 min(n, 25)` of the two scratch arrays hold their final values. -/
def Inv (c : Dev nD) (n : ℕ) (dg dh : Vec F S10000x32 .f32) : Prop :=
  ∀ y : S10000x32.Idx, (y 0).val < 400 * min n 25 → dg y = gSpec m c y ∧ dh y = hSpec m c y

theorem Inv_zero (c : Dev nD) (dg dh : Vec F S10000x32 .f32) : Inv m c 0 dg dh := by
  intro y hy; simp only [Nat.zero_min, Nat.mul_zero] at hy; exact absurd hy (Nat.not_lt_zero _)

/-- From point 25 on both arrays are complete. -/
theorem Inv_full (c : Dev nD) (n : ℕ) (hn : 25 ≤ n) (dg dh : Vec F S10000x32 .f32) (hI : Inv m c n dg dh) :
    dg = gSpec m c ∧ dh = hSpec m c := by
  have hmin : min n 25 = 25 := Nat.min_eq_right hn
  refine ⟨funext fun y => (hI y ?_).1, funext fun y => (hI y ?_).2⟩ <;>
  · rw [hmin]; have := ValueIdx.idx2_lt0 y; omega

theorem Inv_of_full (c : Dev nD) (n : ℕ) : Inv m c n (gSpec m c) (hSpec m c) := fun _ _ => ⟨rfl, rfl⟩

/-- One point of phase 0 extends the filled rows by the point's 400: a row already filled lies outside the stored
    rectangle and keeps its value; a row of the point reads the payload at its place. -/
theorem Inv_step (c : Dev nD) (t : Fin cfg0.N) (h : t.val < 25) (dg dh : Vec F S10000x32 .f32) (hI : Inv m c t.val dg dh) :
    Inv m c (t.val + 1)
      (scG.view.read (Elt F) (scG.view.writes (Elt F) ((Memref.isWhole_whole cc0_scratch0).unread dg)
        [pieceG (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)]))
      (scH.view.read (Elt F) (scH.view.writes (Elt F) ((Memref.isWhole_whole cc0_scratch1).unread dh)
        [pieceH (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)])) := by
  intro y hy
  have hm1 : min (t.val + 1) 25 = t.val + 1 := Nat.min_eq_left (by omega)
  have hm0 : min t.val 25 = t.val := Nat.min_eq_left (by omega)
  rw [hm1] at hy
  unfold pieceG pieceH
  by_cases hr : (y 0).val < 400 * t.val
  · have hold := hI y (by rw [hm0]; exact hr)
    constructor
    · rw [View.read_writes_cons_rows_of_not_mem scG.view _ (k0_off2_inb (grid0.coords t) ((hcondA t).mpr h)) _ [] y
        (off2_eq t h) rfl (Or.inl hr), View.writes_nil, (Memref.isWhole_whole cc0_scratch0).read_unread]
      exact hold.1
    · rw [View.read_writes_cons_rows_of_not_mem scH.view _ (k0_off2_inb (grid0.coords t) ((hcondA t).mpr h)) _ [] y
        (off2_eq t h) rfl (Or.inl hr), View.writes_nil, (Memref.isWhole_whole cc0_scratch1).read_unread]
      exact hold.2
  · have hpt : ptOf y = t := Fin.ext (by show (y 0).val / 400 = t.val; omega)
    have hx0 : (y 0).val = 400 * t.val + ((locOf y) (0 : Fin 2)).val := by
      show (y 0).val = 400 * t.val + (y 0).val % 400; omega
    have hx1 : (y 1).val = ((locOf y) (1 : Fin 2)).val := rfl
    constructor
    · rw [View.read_writes_cons_rows_of_mem scG.view _ (k0_off2_inb (grid0.coords t) ((hcondA t).mpr h)) _ [] y (locOf y)
        (off2_eq t h) hx0 hx1]
      show gRows m c t h (locOf y) = gRows m c (ptOf y) (ptOf_lt y) (locOf y)
      rw [gRows_congr m c hpt (ptOf_lt y) h]
    · rw [View.read_writes_cons_rows_of_mem scH.view _ (k0_off2_inb (grid0.coords t) ((hcondA t).mpr h)) _ [] y (locOf y)
        (off2_eq t h) hx0 hx1]
      show hRows m c t h (locOf y) = hRows m c (ptOf y) (ptOf_lt y) (locOf y)
      rw [hRows_congr m c hpt (ptOf_lt y) h]

/-- Past phase 0 nothing more is filled. -/
theorem Inv_succ_of_ge (c : Dev nD) (n : ℕ) (hn : 25 ≤ n) (dg dh : Vec F S10000x32 .f32) (hI : Inv m c n dg dh) :
    Inv m c (n + 1) dg dh := by
  intro y hy
  rw [Nat.min_eq_right (by omega)] at hy
  exact hI y (by rw [Nat.min_eq_right hn]; exact hy)

/-! ## The block a point of phase 1 produces -/

/-- The output block point `t` of phase 1 stores, as a function of the adjacency block there and the complete scratch
    arrays. -/
def oRows (c : Dev nD) (t : Fin cfg0.N) (h : 25 ≤ t.val) : FVec F S400x32 .f32 :=
  payO (grid0.coords t) ((hcondB t).mpr h) (ms0 t) (hs0 t) scG (Memref.isWhole_whole _) scH (Memref.isWhole_whole _)
    (iblk m c 0 t) (gSpec m c) (hSpec m c)

/-- What the output window's buffer holds after the body at point `t`: in phase 1 the point's block (in phase 0 the
    window rests; nothing is read off this value there). -/
def oBlock (c : Dev nD) (t : Fin cfg0.N) : Vec F S400x32 .f32 :=
  if h : 25 ≤ t.val then oRows m c t h else iblk m c 8 t

theorem oBlock_of_ge (c : Dev nD) (t : Fin cfg0.N) (h : 25 ≤ t.val) : oBlock m c t = oRows m c t h := dif_pos h

/-- A store through the whole block leaves its payload, whatever the buffer held. -/
theorem read_writes_whole_block (v : View sig .tc .vmem S400x32 .f32) (f : v.ty.Contents (Elt F)) (w : S400x32.Idx → Elt F .f32) :
    v.read (Elt F) (v.writes (Elt F) f [(⟨Rect.unit ![0, 0] S400x32.size inb_S400x32_S400x32_0_0, w⟩ : View.Piece (Elt F) S400x32 .f32)]) = w := by
  funext y
  exact View.read_writes_cons_unit_of_mem v f inb_S400x32_S400x32_0_0 w [] y y rfl (fun a => by
    show (y a).val = (![0, 0] : Fin 2 → ℕ) a + (y a).val
    match a with
    | ⟨0, _⟩ => exact (Nat.zero_add _).symm
    | ⟨1, _⟩ => exact (Nat.zero_add _).symm)

/-! ## The invariant and the proof data -/

/-- Before point `n`: the two scratch arrays at some contents whose first `400 min(n, 25)` rows are final, and the
    generator register at some state. -/
def PhiT (c : Dev nD) (n : ℕ) : sProp 𝕄 :=
  iprop((∃ dg dh, ⌜Inv m c n dg dh⌝ ∗ owns (c : Thread nD τ) scG fullShare dg ∗ owns (c : Thread nD τ) scH fullShare dh) ∗ (∃ r, prngReg c r))

/-- The proof data of the pipeline on core `c`: the arrays as the region finds them; after the body each input's buffer
    at its block and the output's at `oBlock`; the invariant `PhiT`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oBlock m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = oBlock m c t := by dsimp only [dats]

/-- Each input's staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.Kernel.Hand

end
-- ==== Proof.KB.Obligation.lean ====
/-
  The body obligation of the pipeline and its run.  At a point of phase 0 the body is handed the two scratch arrays with
  their first 400 t rows final and hands them back with 400 (t + 1) rows final, the output window's buffer untouched; at
  a point of phase 1 both arrays are complete, stay so, and the output window's buffer ends at the point's block.  Before
  the first point nothing is asked of the scratch arrays, after the last nothing is kept of them.
-/
import proofs.«111254_g31370441130263_cont_sun_m_318_18_alg».proof.Proof.KB.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiT m c t.val := by
  dsimp only [dats]; simp only [Fin.coe_castSucc]
theorem Phi_succ (c : Dev nD) (t : Fin cfg0.N) : (dats m 0 c).Φ t.succ = PhiT m c (t.val + 1) := by
  dsimp only [dats]; simp only [Fin.val_succ]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point: the phase is read off the point's number; the inputs' buffers hold their blocks; the invariant
    hands the body the scratch arrays and takes them back one point further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_castSucc, Phi_succ]
  have hN : t.val < 50 := lt_of_lt_of_eq t.isLt N50
  by_cases h0 : t.val < 25
  · -- phase 0
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [live6 t], after_6]
      rw [show (dats m 0 c).leavesExact 7 t = owns (c : Thread nD τ) (ms7 t) fullShare ((dats m 0 c).after 7 t) from by
        unfold Dat.leavesExact; rw [live7 t], after_7]
      rw [Dat.leavesExact_idle (dats m 0 c) 8 t (idle8 t h0) (noFlush8 t h0)]
      unfold PhiT
      iintro ⟨⟨⟨%dg, %dh, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ ((hcondA t).mpr h0) (fun hb => absurd ((hcondB t).mp hb) (by omega)) (iblk m c 0 t) (iblk m c 1 t) (iblk m c 2 t) (iblk m c 3 t) (iblk m c 4 t) (iblk m c 5 t) (iblk m c 6 t) (iblk m c 7 t) ((dats m 0 c).before 8 t d8) dg dh) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _, _
          isplitr
          · ipureintro; exact Inv_step m c t h0 dg dh hI
          isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · -- phase 1
      have h1 : 25 ≤ t.val := Nat.le_of_not_lt h0
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [live6 t], after_6]
      rw [show (dats m 0 c).leavesExact 7 t = owns (c : Thread nD τ) (ms7 t) fullShare ((dats m 0 c).after 7 t) from by
        unfold Dat.leavesExact; rw [live7 t], after_7]
      rw [show (dats m 0 c).leavesExact 8 t = owns (c : Thread nD τ) (ms8 t) fullShare ((dats m 0 c).after 8 t) from by
        unfold Dat.leavesExact; rw [live8 t h1], after_8, oBlock_of_ge m c t h1]
      unfold PhiT
      iintro ⟨⟨⟨%dg, %dh, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨rfl, rfl⟩ := Inv_full m c t.val h1 dg dh hI
      iapply ((runB c (grid0.coords t) _ _ _ _ _ _ _ _ _ _ _ _ _ _ _ _ _ _ _ _ _ _ (fun ha => absurd ((hcondA t).mp ha) (by omega)) ((hcondB t).mpr h1) (iblk m c 0 t) (iblk m c 1 t) (iblk m c 2 t) (iblk m c 3 t) (iblk m c 4 t) (iblk m c 5 t) (iblk m c 6 t) (iblk m c 7 t) ((dats m 0 c).before 8 t d8) (gSpec m c) (hSpec m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _, _
          isplitr
          · ipureintro; exact Inv_of_full m c (t.val + 1)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; unfold pieceO oRows; exact read_writes_whole_block _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is asked to be final yet. -/
theorem hin (c : Dev nD) : Pipeline.ΦA spec0 c ⊢ (dats m 0 c).Φ 0 := by
  rw [show (dats m 0 c).Φ 0 = PhiT m c 0 from rfl, PhiA_eq]; unfold PhiT
  iintro ⟨⟨⟨%dg, HS0⟩, ⟨%dh, HS1⟩⟩, Hg⟩
  isplitl [HS0 HS1]
  · iexists dg, dh
    isplitr
    · ipureintro; exact Inv_zero m c dg dh
    isplitl [HS0]; · iexact HS0
    iexact HS1
  iexact Hg

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]; unfold PhiT
  iintro ⟨⟨%dg, %dh, -, HS0, HS1⟩, Hg⟩
  isplitl [HS0 HS1]
  · isplitl [HS0]
    · iexists _; iexact HS0
    iexists _; iexact HS1
  iexact Hg

set_option backward.isDefEq.respectTransparency.types false in
/-- At the compiled mesh, for any values, from any memory with zero counters: every weakly fair execution of @main on the
    TensorCores terminates, and every final state has every array of the pipeline at what the library computes from the
    proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Setup.lean ====
/-
  What the two phases of the fused two-layer graph convolution share, read off the grid of 2 x 25 points: the first 25
  points (phase 0) each fill rows [400 t, 400 t + 400) of the two scratch arrays; the last 25 (phase 1) each produce the
  output block of rows [400 (49 - t), 400 (49 - t) + 400).  Here: which points are in which phase, where the output window
  rests and where it is written back, the row offsets of each point in closed form, and the staging memrefs by name.
-/
import proofs.«111254_g31370441130263_cont_sun_m_318_18_alg».proof.Proof.Gen.KernelIdeal.Frame
import proofs.«111254_g31370441130263_cont_sun_m_318_18_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in phase 0 (the branch that fills the scratch rows is taken). -/
abbrev condA (i : grid0.Coords) : Prop := k0_cond1 i = 1#1
/-- The point is in phase 1 (the branch that stores the output block is taken). -/
abbrev condB (i : grid0.Coords) : Prop := k0_cond2 i = 1#1

/-- Phase 0 is the first 25 points. -/
theorem hcondA : ∀ t : Fin cfg0.N, condA (grid0.coords t) ↔ t.val < 25 :=
  (by decide +kernel : ∀ t : Fin grid0.N, condA (grid0.coords t) ↔ t.val < 25)
/-- Phase 1 is the last 25 points. -/
theorem hcondB : ∀ t : Fin cfg0.N, condB (grid0.coords t) ↔ 25 ≤ t.val :=
  (by decide +kernel : ∀ t : Fin grid0.N, condB (grid0.coords t) ↔ 25 ≤ t.val)

theorem N50 : cfg0.N = 50 := N_0

/-! The input windows never rest. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel

/-- The output window rests through phase 0 and is not written back there; -/
theorem idle8 : ∀ t : Fin cfg0.N, t.val < 25 → cfg0.idle 8 (grid0.coords t) = true :=
  (by decide +kernel : ∀ t : Fin grid0.N, t.val < 25 → cfg0.idle 8 (grid0.coords t) = true)
theorem noFlush8 : ∀ t : Fin cfg0.N, t.val < 25 → (cfg0.win 8).flush t = false :=
  (by decide +kernel : ∀ t : Fin grid0.N, t.val < 25 → win0_8.flush t = false)
/-- in phase 1 it is live and written back at every point. -/
theorem live8 : ∀ t : Fin cfg0.N, 25 ≤ t.val → cfg0.idle 8 (grid0.coords t) = false :=
  (by decide +kernel : ∀ t : Fin grid0.N, 25 ≤ t.val → cfg0.idle 8 (grid0.coords t) = false)
theorem flush8 : ∀ t : Fin cfg0.N, 25 ≤ t.val → (cfg0.win 8).flush t = true :=
  (by decide +kernel : ∀ t : Fin grid0.N, 25 ≤ t.val → win0_8.flush t = true)

/-! The row offsets of a point, in closed form. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
theorem off2_eq : ∀ t : Fin cfg0.N, t.val < 25 → k0_off2 (grid0.coords t) = ![400 * t.val, 0] :=
  (by decide +kernel : ∀ t : Fin grid0.N, t.val < 25 → k0_off2 (grid0.coords t) = ![400 * t.val, 0])
theorem off3_eq : ∀ t : Fin cfg0.N, 25 ≤ t.val → k0_off3 (grid0.coords t) = ![400 * (49 - t.val), 0] :=
  (by decide +kernel : ∀ t : Fin grid0.N, 25 ≤ t.val → k0_off3 (grid0.coords t) = ![400 * (49 - t.val), 0])

/-! The staging memref each window is on at a point, and the two scratch arrays. -/
abbrev ms0 (t : Fin cfg0.N) : Memref sig .tc .vmem S400x10000 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S10000x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x32 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x32 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x32 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S400x32 .f32 := win0_8.stage (cfg0.slots t 8)
abbrev hs8 (t : Fin cfg0.N) : (ms8 t).IsWhole := hstage0_8 ((cfg0.slots t 8).cast nbuf0_8)
abbrev scG : Memref sig .tc .vmem S10000x32 .f32 := Memref.whole cc0_scratch0
abbrev scH : Memref sig .tc .vmem S10000x32 .f32 := Memref.whole cc0_scratch1

/-- What the region hands the body beside the windows: the two scratch arrays, each at some contents, and the generator
    register. -/
theorem PhiA_eq (c : Dev nD) :
    (Pipeline.ΦA spec0 c : sProp 𝕄)
      = iprop(iprop((∃ d, owns (c : Thread nD τ) scG fullShare d) ∗ (∃ d, owns (c : Thread nD τ) scH fullShare d)) ∗ (∃ r, prngReg c r)) := by
  unfold Pipeline.ΦA; rw [scopedRest0_eq]; simp only [scG, scH, owns_whole]; try rfl

end Cert.KernelIdeal.Hand

end
-- ==== Proof.KI.RunA.lean ====
/-
  Phase 0 at one grid point, run symbolically: the body loads the adjacency block, the whole feature matrix, the point's
  400 feature rows and the weights, and stores two 400 x 32 payloads into rows [off, off + 400) of the two scratch arrays,
  leaving every other row of them, the inputs and the output window's buffer as it found them.
-/
import proofs.«111254_g31370441130263_cont_sun_m_318_18_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What phase 0 stores into the first scratch array: the rows of g = relu(x W1_0 + (adj x) W1_1 + b1) W2_1 of this point. -/
def payG (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : FVec F S400x32 .f32 :=
  k0_pay3 (View.readAt (Elt F) arg2.view (Rect.unit ![0, 0] S400x10000.size inb_S400x10000_S400x10000_0_0).toLoadRect (harg2.unread x0)) (View.readAt (Elt F) arg3.view (Rect.unit ![0, 0] S10000x128.size inb_S10000x128_S10000x128_0_0).toLoadRect (harg3.unread x1)) (View.readAt (Elt F) arg3.view (Rect.unit (s := S10000x128) (k0_off1 i) S400x128.size (k0_off1_inb i hc0)).toLoadRect (harg3.unread x1)) (View.readAt (Elt F) arg4.view (Rect.unit ![0, 0] S128x128.size inb_S128x128_S128x128_0_0).toLoadRect (harg4.unread x2)) (View.readAt (Elt F) arg5.view (Rect.unit ![0, 0] S128x128.size inb_S128x128_S128x128_0_0).toLoadRect (harg5.unread x3)) (View.readAt (Elt F) arg6.view (Rect.unit ![0, 0] S1x128.size inb_S1x128_S1x128_0_0).toLoadRect (harg6.unread x4)) (View.readAt (Elt F) arg8.view (Rect.unit ![0, 0] S128x32.size inb_S128x32_S128x32_0_0).toLoadRect (harg8.unread x6))

/-- The store itself: that payload through the rectangle of the point's rows. -/
def pieceG (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : View.Piece (Elt F) S10000x32 .f32 :=
  ⟨Rect.unit (s := S10000x32) (k0_off2 i) S400x32.size (k0_off2_inb i hc0), payG i hc0 arg2 harg2 arg3 harg3 arg4 harg4 arg5 harg5 arg6 harg6 arg7 harg7 arg8 harg8 arg9 harg9 x0 x1 x2 x3 x4 x5 x6 x7⟩

/-- What phase 0 stores into the second scratch array: the rows of hw = relu(…) W2_0 + b2 of this point. -/
def payH (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : FVec F S400x32 .f32 :=
  k0_pay4 (View.readAt (Elt F) arg2.view (Rect.unit ![0, 0] S400x10000.size inb_S400x10000_S400x10000_0_0).toLoadRect (harg2.unread x0)) (View.readAt (Elt F) arg3.view (Rect.unit ![0, 0] S10000x128.size inb_S10000x128_S10000x128_0_0).toLoadRect (harg3.unread x1)) (View.readAt (Elt F) arg3.view (Rect.unit (s := S10000x128) (k0_off1 i) S400x128.size (k0_off1_inb i hc0)).toLoadRect (harg3.unread x1)) (View.readAt (Elt F) arg4.view (Rect.unit ![0, 0] S128x128.size inb_S128x128_S128x128_0_0).toLoadRect (harg4.unread x2)) (View.readAt (Elt F) arg5.view (Rect.unit ![0, 0] S128x128.size inb_S128x128_S128x128_0_0).toLoadRect (harg5.unread x3)) (View.readAt (Elt F) arg6.view (Rect.unit ![0, 0] S1x128.size inb_S1x128_S1x128_0_0).toLoadRect (harg6.unread x4)) (View.readAt (Elt F) arg7.view (Rect.unit ![0, 0] S128x32.size inb_S128x32_S128x32_0_0).toLoadRect (harg7.unread x5)) (View.readAt (Elt F) arg9.view (Rect.unit ![0, 0] S1x32.size inb_S1x32_S1x32_0_0).toLoadRect (harg9.unread x7))

/-- The store itself: that payload through the rectangle of the point's rows. -/
def pieceH (i : grid0.Coords) (hc0 : condA i) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) : View.Piece (Elt F) S10000x32 .f32 :=
  ⟨Rect.unit (s := S10000x32) (k0_off2 i) S400x32.size (k0_off2_inb i hc0), payH i hc0 arg2 harg2 arg3 harg3 arg4 harg4 arg5 harg5 arg6 harg6 arg7 harg7 arg8 harg8 arg9 harg9 x0 x1 x2 x3 x4 x5 x6 x7⟩

set_option maxHeartbeats 1600000 in
/-- The body at a point of phase 0, on whole staging memrefs holding the inputs' blocks, the output window's buffer at any
    contents `xi8` and the two scratch arrays at `xs0`, `xs1`: it runs to the continuation with the inputs and the output
    buffer untouched and each scratch array overwritten on the point's rows by its payload. -/
theorem runA (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : condA i) (hc1 : ¬condB i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (xi8 : Vec F S400x32 .f32) (xs0 xs1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8
                ∗ (arg11.view.loc (c : Thread nD τ) ↦[arg11.view.set]{fullShare} arg11.view.writes (Elt F) (harg11.unread xs0) [pieceG i hc0 arg2 harg2 arg3 harg3 arg4 harg4 arg5 harg5 arg6 harg6 arg7 harg7 arg8 harg8 arg9 harg9 x0 x1 x2 x3 x4 x5 x6 x7])
                ∗ (arg12.view.loc (c : Thread nD τ) ↦[arg12.view.set]{fullShare} arg12.view.writes (Elt F) (harg12.unread xs1) [pieceH i hc0 arg2 harg2 arg3 harg3 arg4 harg4 arg5 harg5 arg6 harg6 arg7 harg7 arg8 harg8 arg9 harg9 x0 x1 x2 x3 x4 x5 x6 x7])) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]
    · unfold pieceG payG; iexact HS0
    unfold pieceH payH; sl_unfold_run_names; iexact HS1

end Cert.KernelIdeal.Hand

end
-- ==== Proof.KI.RunB.lean ====
/-
  Phase 1 at one grid point, run symbolically: the body loads the point's 400 rows of the second scratch array (hw), the
  adjacency block and the whole first scratch array (g), and stores one 400 x 32 payload, log-softmax of hw + adj g row by
  row, over the whole output block; the inputs and both scratch arrays are left as it found them.
-/
import proofs.«111254_g31370441130263_cont_sun_m_318_18_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What phase 1 stores into the output window's buffer (all of it). -/
def payO (i : grid0.Coords) (hc1 : condB i) (arg2 : Memref sig .tc .vmem S400x10000 .f32) (harg2 : arg2.IsWhole)
    (arg11 : Memref sig .tc .vmem S10000x32 .f32) (harg11 : arg11.IsWhole) (arg12 : Memref sig .tc .vmem S10000x32 .f32) (harg12 : arg12.IsWhole)
    (x0 : Vec F S400x10000 .f32) (xs0 xs1 : Vec F S10000x32 .f32) : FVec F S400x32 .f32 :=
    k0_pay1 (View.readAt (Elt F) arg12.view (Rect.unit (s := S10000x32) (k0_off3 i) S400x32.size (k0_off3_inb i hc1)).toLoadRect (harg12.unread xs1))
      (View.readAt (Elt F) arg2.view (Rect.unit ![0, 0] S400x10000.size inb_S400x10000_S400x10000_0_0).toLoadRect (harg2.unread x0))
      (View.readAt (Elt F) arg11.view (Rect.unit ![0, 0] S10000x32.size inb_S10000x32_S10000x32_0_0).toLoadRect (harg11.unread xs0))

/-- The store itself: that payload through the rectangle of the whole block. -/
def pieceO (i : grid0.Coords) (hc1 : condB i) (arg2 : Memref sig .tc .vmem S400x10000 .f32) (harg2 : arg2.IsWhole)
    (arg11 : Memref sig .tc .vmem S10000x32 .f32) (harg11 : arg11.IsWhole) (arg12 : Memref sig .tc .vmem S10000x32 .f32) (harg12 : arg12.IsWhole)
    (x0 : Vec F S400x10000 .f32) (xs0 xs1 : Vec F S10000x32 .f32) : View.Piece (Elt F) S400x32 .f32 :=
  ⟨Rect.unit (s := S400x32) ![0, 0] S400x32.size inb_S400x32_S400x32_0_0, payO i hc1 arg2 harg2 arg11 harg11 arg12 harg12 x0 xs0 xs1⟩

set_option maxHeartbeats 1600000 in
/-- The body at a point of phase 1, on whole staging memrefs holding the inputs' blocks, the output window's buffer at any
    contents `xi8` and the two scratch arrays at `xs0`, `xs1`: it runs to the continuation with the inputs and both scratch
    arrays untouched and the output buffer overwritten whole by its payload. -/
theorem runB (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x32 .f32) (harg7 : arg7.IsWhole) (arg8 : Memref sig .tc .vmem S128x32 .f32) (harg8 : arg8.IsWhole) (arg9 : Memref sig .tc .vmem S1x32 .f32) (harg9 : arg9.IsWhole) (arg10 : Memref sig .tc .vmem S400x32 .f32) (harg10 : arg10.IsWhole) (arg11 : Memref sig .tc .vmem S10000x32 .f32) (harg11 : arg11.IsWhole) (arg12 : Memref sig .tc .vmem S10000x32 .f32) (harg12 : arg12.IsWhole) (hc0 : ¬condA i) (hc1 : condB i)
    (x0 : Vec F S400x10000 .f32) (x1 : Vec F S10000x128 .f32) (x2 : Vec F S128x128 .f32) (x3 : Vec F S128x128 .f32) (x4 : Vec F S1x128 .f32) (x5 : Vec F S128x32 .f32) (x6 : Vec F S128x32 .f32) (x7 : Vec F S1x32 .f32) (xi8 : Vec F S400x32 .f32) (xs0 xs1 : Vec F S10000x32 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7
                ∗ (arg10.view.loc (c : Thread nD τ) ↦[arg10.view.set]{fullShare} arg10.view.writes (Elt F) (harg10.unread xi8) [pieceO i hc1 arg2 harg2 arg11 harg11 arg12 harg12 x0 xs0 xs1])
                ∗ owns (c : Thread nD τ) arg11 fullShare xs0 ∗ owns (c : Thread nD τ) arg12 fullShare xs1) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12) K := by
    intro E K
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hf8; obtain rfl := harg11.eq_unread hfs0; obtain rfl := harg12.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · unfold pieceO payO; iexact H8
    isplitl [HS0]
    · iexists _; isplitr; · ipureintro; exact harg11.read_unread _
      iexact HS0
    iexists _; isplitr; · ipureintro; exact harg12.read_unread _
    iexact HS1

end Cert.KernelIdeal.Hand

end
-- ==== Proof.KI.Data.lean ====
/-
  What the two scratch arrays and the output window hold, point by point.  Row r of the first scratch array is filled at
  point r / 400 of phase 0 with the (r mod 400)-th row of that point's payload g, and is never touched again; likewise
  the second array with hw.  So after n points the rows below 400 min(n, 25) hold their final values (`Inv`), whatever
  the arrays held at launch, and through phase 1 both arrays are complete.  The output block of a phase-1 point is its
  payload of the complete arrays.  The proof data of the pipeline states exactly this.
-/
import proofs.«111254_g31370441130263_cont_sun_m_318_18_alg».proof.Proof.KI.RunA
import proofs.«111254_g31370441130263_cont_sun_m_318_18_alg».proof.Proof.KI.RunB
import Idealize.ShloMosaic.Lib.WritesUnit
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The rows a point of phase 0 produces -/

/-- The 400 rows of g that point `t` of phase 0 stores, as a function of the windows' blocks there. -/
def gRows (c : Dev nD) (t : Fin cfg0.N) (h : t.val < 25) : FVec F S400x32 .f32 :=
  payG (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)

/-- The 400 rows of hw that point `t` of phase 0 stores. -/
def hRows (c : Dev nD) (t : Fin cfg0.N) (h : t.val < 25) : FVec F S400x32 .f32 :=
  payH (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)

theorem gRows_congr (c : Dev nD) {t t' : Fin cfg0.N} (e : t = t') (h : t.val < 25) (h' : t'.val < 25) :
    gRows m c t h = gRows m c t' h' := by subst e; rfl
theorem hRows_congr (c : Dev nD) {t t' : Fin cfg0.N} (e : t = t') (h : t.val < 25) (h' : t'.val < 25) :
    hRows m c t h = hRows m c t' h' := by subst e; rfl

/-- The point of phase 0 that fills row `(y 0)`: its quotient by 400. -/
def ptOf (y : S10000x32.Idx) : Fin cfg0.N :=
  ⟨(y 0).val / 400, by have := ValueIdx.idx2_lt0 y; rw [N50]; omega⟩
theorem ptOf_lt (y : S10000x32.Idx) : (ptOf y).val < 25 := by
  have := ValueIdx.idx2_lt0 y; show (y 0).val / 400 < 25; omega
/-- and the row's place inside that point's 400 rows. -/
def locOf (y : S10000x32.Idx) : S400x32.Idx :=
  ValueIdx.ix2 ⟨(y 0).val % 400, Nat.mod_lt _ (by norm_num)⟩ ⟨(y 1).val, ValueIdx.idx2_lt1 y⟩

/-- The complete first scratch array, g, entry by entry. -/
def gSpec (c : Dev nD) : Vec F S10000x32 .f32 := fun y => gRows m c (ptOf y) (ptOf_lt y) (locOf y)
/-- The complete second scratch array, hw, entry by entry. -/
def hSpec (c : Dev nD) : Vec F S10000x32 .f32 := fun y => hRows m c (ptOf y) (ptOf_lt y) (locOf y)

/-- After `n` points the rows below `400 min(n, 25)` of the two scratch arrays hold their final values. -/
def Inv (c : Dev nD) (n : ℕ) (dg dh : Vec F S10000x32 .f32) : Prop :=
  ∀ y : S10000x32.Idx, (y 0).val < 400 * min n 25 → dg y = gSpec m c y ∧ dh y = hSpec m c y

theorem Inv_zero (c : Dev nD) (dg dh : Vec F S10000x32 .f32) : Inv m c 0 dg dh := by
  intro y hy; simp only [Nat.zero_min, Nat.mul_zero] at hy; exact absurd hy (Nat.not_lt_zero _)

/-- From point 25 on both arrays are complete. -/
theorem Inv_full (c : Dev nD) (n : ℕ) (hn : 25 ≤ n) (dg dh : Vec F S10000x32 .f32) (hI : Inv m c n dg dh) :
    dg = gSpec m c ∧ dh = hSpec m c := by
  have hmin : min n 25 = 25 := Nat.min_eq_right hn
  refine ⟨funext fun y => (hI y ?_).1, funext fun y => (hI y ?_).2⟩ <;>
  · rw [hmin]; have := ValueIdx.idx2_lt0 y; omega

theorem Inv_of_full (c : Dev nD) (n : ℕ) : Inv m c n (gSpec m c) (hSpec m c) := fun _ _ => ⟨rfl, rfl⟩

/-- One point of phase 0 extends the filled rows by the point's 400: a row already filled lies outside the stored
    rectangle and keeps its value; a row of the point reads the payload at its place. -/
theorem Inv_step (c : Dev nD) (t : Fin cfg0.N) (h : t.val < 25) (dg dh : Vec F S10000x32 .f32) (hI : Inv m c t.val dg dh) :
    Inv m c (t.val + 1)
      (scG.view.read (Elt F) (scG.view.writes (Elt F) ((Memref.isWhole_whole cc0_scratch0).unread dg)
        [pieceG (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)]))
      (scH.view.read (Elt F) (scH.view.writes (Elt F) ((Memref.isWhole_whole cc0_scratch1).unread dh)
        [pieceH (grid0.coords t) ((hcondA t).mpr h) (ms0 t) (hs0 t) (ms1 t) (hs1 t) (ms2 t) (hs2 t) (ms3 t) (hs3 t) (ms4 t) (hs4 t) (ms5 t) (hs5 t) (ms6 t) (hs6 t) (ms7 t) (hs7 t) (iblk m c 0 t) (iblk m c 1 t) (iblk m c 2 t) (iblk m c 3 t) (iblk m c 4 t) (iblk m c 5 t) (iblk m c 6 t) (iblk m c 7 t)])) := by
  intro y hy
  have hm1 : min (t.val + 1) 25 = t.val + 1 := Nat.min_eq_left (by omega)
  have hm0 : min t.val 25 = t.val := Nat.min_eq_left (by omega)
  rw [hm1] at hy
  unfold pieceG pieceH
  by_cases hr : (y 0).val < 400 * t.val
  · have hold := hI y (by rw [hm0]; exact hr)
    constructor
    · rw [View.read_writes_cons_rows_of_not_mem scG.view _ (k0_off2_inb (grid0.coords t) ((hcondA t).mpr h)) _ [] y
        (off2_eq t h) rfl (Or.inl hr), View.writes_nil, (Memref.isWhole_whole cc0_scratch0).read_unread]
      exact hold.1
    · rw [View.read_writes_cons_rows_of_not_mem scH.view _ (k0_off2_inb (grid0.coords t) ((hcondA t).mpr h)) _ [] y
        (off2_eq t h) rfl (Or.inl hr), View.writes_nil, (Memref.isWhole_whole cc0_scratch1).read_unread]
      exact hold.2
  · have hpt : ptOf y = t := Fin.ext (by show (y 0).val / 400 = t.val; omega)
    have hx0 : (y 0).val = 400 * t.val + ((locOf y) (0 : Fin 2)).val := by
      show (y 0).val = 400 * t.val + (y 0).val % 400; omega
    have hx1 : (y 1).val = ((locOf y) (1 : Fin 2)).val := rfl
    constructor
    · rw [View.read_writes_cons_rows_of_mem scG.view _ (k0_off2_inb (grid0.coords t) ((hcondA t).mpr h)) _ [] y (locOf y)
        (off2_eq t h) hx0 hx1]
      show gRows m c t h (locOf y) = gRows m c (ptOf y) (ptOf_lt y) (locOf y)
      rw [gRows_congr m c hpt (ptOf_lt y) h]
    · rw [View.read_writes_cons_rows_of_mem scH.view _ (k0_off2_inb (grid0.coords t) ((hcondA t).mpr h)) _ [] y (locOf y)
        (off2_eq t h) hx0 hx1]
      show hRows m c t h (locOf y) = hRows m c (ptOf y) (ptOf_lt y) (locOf y)
      rw [hRows_congr m c hpt (ptOf_lt y) h]

/-- Past phase 0 nothing more is filled. -/
theorem Inv_succ_of_ge (c : Dev nD) (n : ℕ) (hn : 25 ≤ n) (dg dh : Vec F S10000x32 .f32) (hI : Inv m c n dg dh) :
    Inv m c (n + 1) dg dh := by
  intro y hy
  rw [Nat.min_eq_right (by omega)] at hy
  exact hI y (by rw [Nat.min_eq_right hn]; exact hy)

/-! ## The block a point of phase 1 produces -/

/-- The output block point `t` of phase 1 stores, as a function of the adjacency block there and the complete scratch
    arrays. -/
def oRows (c : Dev nD) (t : Fin cfg0.N) (h : 25 ≤ t.val) : FVec F S400x32 .f32 :=
  payO (grid0.coords t) ((hcondB t).mpr h) (ms0 t) (hs0 t) scG (Memref.isWhole_whole _) scH (Memref.isWhole_whole _)
    (iblk m c 0 t) (gSpec m c) (hSpec m c)

/-- What the output window's buffer holds after the body at point `t`: in phase 1 the point's block (in phase 0 the
    window rests; nothing is read off this value there). -/
def oBlock (c : Dev nD) (t : Fin cfg0.N) : Vec F S400x32 .f32 :=
  if h : 25 ≤ t.val then oRows m c t h else iblk m c 8 t

theorem oBlock_of_ge (c : Dev nD) (t : Fin cfg0.N) (h : 25 ≤ t.val) : oBlock m c t = oRows m c t h := dif_pos h

/-- A store through the whole block leaves its payload, whatever the buffer held. -/
theorem read_writes_whole_block (v : View sig .tc .vmem S400x32 .f32) (f : v.ty.Contents (Elt F)) (w : S400x32.Idx → Elt F .f32) :
    v.read (Elt F) (v.writes (Elt F) f [(⟨Rect.unit ![0, 0] S400x32.size inb_S400x32_S400x32_0_0, w⟩ : View.Piece (Elt F) S400x32 .f32)]) = w := by
  funext y
  exact View.read_writes_cons_unit_of_mem v f inb_S400x32_S400x32_0_0 w [] y y rfl (fun a => by
    show (y a).val = (![0, 0] : Fin 2 → ℕ) a + (y a).val
    match a with
    | ⟨0, _⟩ => exact (Nat.zero_add _).symm
    | ⟨1, _⟩ => exact (Nat.zero_add _).symm)

/-! ## The invariant and the proof data -/

/-- Before point `n`: the two scratch arrays at some contents whose first `400 min(n, 25)` rows are final, and the
    generator register at some state. -/
def PhiT (c : Dev nD) (n : ℕ) : sProp 𝕄 :=
  iprop((∃ dg dh, ⌜Inv m c n dg dh⌝ ∗ owns (c : Thread nD τ) scG fullShare dg ∗ owns (c : Thread nD τ) scH fullShare dh) ∗ (∃ r, prngReg c r))

/-- The proof data of the pipeline on core `c`: the arrays as the region finds them; after the body each input's buffer
    at its block and the output's at `oBlock`; the invariant `PhiT`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oBlock m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = oBlock m c t := by dsimp only [dats]

/-- Each input's staging buffer holds its block at every point, fetched there or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

end Cert.KernelIdeal.Hand

end
-- ==== Proof.Blocks.lean ====
/-
  The windows' blocks read at an index, over the extended reals.  Window 0 stages the adjacency matrix in blocks of 400
  rows, block t in phase 0 and block 49 - t in phase 1; windows 1 to 7 stage the feature matrix, the four weight matrices
  and the two bias vectors (each bias as a one-row matrix) whole, at every point.  So an entry of a block is an entry of
  an argument array, at a row offset for the adjacency block and at the same place for the others.
-/
import proofs.«111254_g31370441130263_cont_sun_m_318_18_alg».proof.Proof.KI.Data
import Idealize.ShloMosaic.Lib.ValueLayout
import Idealize.ShloMosaic.Lib.StableHlo.Run

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ)

/-! ## The argument arrays as functions of their coordinates -/

def aX (c : Dev nD) (r : Fin 10000) (k : Fin 128) : EReal := m ((c.tc : Thread nD τ).loc main_arg0) (ix2 r k)
def aA (c : Dev nD) (r l : Fin 10000) : EReal := m ((c.tc : Thread nD τ).loc main_arg1) (ix2 r l)
def aW10 (c : Dev nD) (k j : Fin 128) : EReal := m ((c.tc : Thread nD τ).loc main_arg2) (ix2 k j)
def aW11 (c : Dev nD) (k j : Fin 128) : EReal := m ((c.tc : Thread nD τ).loc main_arg3) (ix2 k j)
def ab1 (c : Dev nD) (j : Fin 128) : EReal := m ((c.tc : Thread nD τ).loc main_arg4) (ix1 j)
def aW20 (c : Dev nD) (j : Fin 128) (q : Fin 32) : EReal := m ((c.tc : Thread nD τ).loc main_arg5) (ix2 j q)
def aW21 (c : Dev nD) (j : Fin 128) (q : Fin 32) : EReal := m ((c.tc : Thread nD τ).loc main_arg6) (ix2 j q)
def ab2 (c : Dev nD) (q : Fin 32) : EReal := m ((c.tc : Thread nD τ).loc main_arg7) (ix1 q)

/-! ## Which block of its array a window is on -/

/-- The adjacency block's number at point `t`: `t` ascending through phase 0, `49 - t` descending through phase 1. -/
def blkNo (t : Fin cfg0.N) : ℕ := if t.val < 25 then t.val else 49 - t.val

theorem idx0 : ∀ t : Fin cfg0.N, win0_0.index t (0 : Fin 2) = (if t.val < 25 then t.val else 49 - t.val) ∧ win0_0.index t (1 : Fin 2) = 0 :=
  (by decide +kernel : ∀ t : Fin grid0.N, win0_0.index t (0 : Fin 2) = (if t.val < 25 then t.val else 49 - t.val) ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = (if t.val < 25 then 24 else 49 - t.val) ∧ win0_8.index t (1 : Fin 2) = 0 :=
  (by decide +kernel : ∀ t : Fin grid0.N, win0_8.index t (0 : Fin 2) = (if t.val < 25 then 24 else 49 - t.val) ∧ win0_8.index t (1 : Fin 2) = 0)

/-! ## The blocks at an index -/

/-- The adjacency block at `(p, l)`: row `400 · blkNo t + p`, column `l` of the adjacency matrix. -/
theorem blk0_apply (c : Dev nD) (t : Fin cfg0.N) (p : Fin 400) (l : Fin 10000) (r : Fin 10000) (hr : r.val = 400 * blkNo t + p.val) :
    iblk m c 0 t (ix2 p l) = aA m c r l := by
  show V m c main_arg1 (((cfg0.win 0).blk t).view.emb (ix2 p l)) = _
  rw [V_main_arg1]
  refine congrArg (m ((c.tc : Thread nD τ).loc main_arg1)) (funext fun a => Fin.ext ?_)
  match a with
  | ⟨0, _⟩ =>
    show win0_0.index t (0 : Fin 2) * 400 + 1 * p.val = r.val
    rw [(idx0 t).1, hr]; unfold blkNo; omega
  | ⟨1, _⟩ =>
    show win0_0.index t (1 : Fin 2) * 10000 + 1 * l.val = l.val
    rw [(idx0 t).2]; omega

/-- The feature matrix, resident whole. -/
theorem blk1_apply (c : Dev nD) (t : Fin cfg0.N) (r : Fin 10000) (k : Fin 128) : iblk m c 1 t (ix2 r k) = aX m c r k := by
  show V m c main_arg0 (((cfg0.win 1).blk t).view.emb (ix2 r k)) = _
  rw [V_main_arg0]
  refine congrArg (m ((c.tc : Thread nD τ).loc main_arg0)) (funext fun a => Fin.ext ?_)
  match a with
  | ⟨0, _⟩ => show win0_1.index t (0 : Fin 2) * 10000 + 1 * r.val = r.val; rw [(idx1 t).1]; omega
  | ⟨1, _⟩ => show win0_1.index t (1 : Fin 2) * 128 + 1 * k.val = k.val; rw [(idx1 t).2]; omega

theorem blk2_apply (c : Dev nD) (t : Fin cfg0.N) (k j : Fin 128) : iblk m c 2 t (ix2 k j) = aW10 m c k j := by
  show V m c main_arg2 (((cfg0.win 2).blk t).view.emb (ix2 k j)) = _
  rw [V_main_arg2]
  refine congrArg (m ((c.tc : Thread nD τ).loc main_arg2)) (funext fun a => Fin.ext ?_)
  match a with
  | ⟨0, _⟩ => show win0_2.index t (0 : Fin 2) * 128 + 1 * k.val = k.val; rw [(idx2 t).1]; omega
  | ⟨1, _⟩ => show win0_2.index t (1 : Fin 2) * 128 + 1 * j.val = j.val; rw [(idx2 t).2]; omega

theorem blk3_apply (c : Dev nD) (t : Fin cfg0.N) (k j : Fin 128) : iblk m c 3 t (ix2 k j) = aW11 m c k j := by
  show V m c main_arg3 (((cfg0.win 3).blk t).view.emb (ix2 k j)) = _
  rw [V_main_arg3]
  refine congrArg (m ((c.tc : Thread nD τ).loc main_arg3)) (funext fun a => Fin.ext ?_)
  match a with
  | ⟨0, _⟩ => show win0_3.index t (0 : Fin 2) * 128 + 1 * k.val = k.val; rw [(idx3 t).1]; omega
  | ⟨1, _⟩ => show win0_3.index t (1 : Fin 2) * 128 + 1 * j.val = j.val; rw [(idx3 t).2]; omega

theorem blk5_apply (c : Dev nD) (t : Fin cfg0.N) (j : Fin 128) (q : Fin 32) : iblk m c 5 t (ix2 j q) = aW20 m c j q := by
  show V m c main_arg5 (((cfg0.win 5).blk t).view.emb (ix2 j q)) = _
  rw [V_main_arg5]
  refine congrArg (m ((c.tc : Thread nD τ).loc main_arg5)) (funext fun a => Fin.ext ?_)
  match a with
  | ⟨0, _⟩ => show win0_5.index t (0 : Fin 2) * 128 + 1 * j.val = j.val; rw [(idx5 t).1]; omega
  | ⟨1, _⟩ => show win0_5.index t (1 : Fin 2) * 32 + 1 * q.val = q.val; rw [(idx5 t).2]; omega

theorem blk6_apply (c : Dev nD) (t : Fin cfg0.N) (j : Fin 128) (q : Fin 32) : iblk m c 6 t (ix2 j q) = aW21 m c j q := by
  show V m c main_arg6 (((cfg0.win 6).blk t).view.emb (ix2 j q)) = _
  rw [V_main_arg6]
  refine congrArg (m ((c.tc : Thread nD τ).loc main_arg6)) (funext fun a => Fin.ext ?_)
  match a with
  | ⟨0, _⟩ => show win0_6.index t (0 : Fin 2) * 128 + 1 * j.val = j.val; rw [(idx6 t).1]; omega
  | ⟨1, _⟩ => show win0_6.index t (1 : Fin 2) * 32 + 1 * q.val = q.val; rw [(idx6 t).2]; omega

/-- The first bias as the region finds it: the vector reshaped to one row. -/
theorem V_b1 (c : Dev nD) : (V m c main_call0_v0 : S1x128.Idx → EReal) = shapeCast S1x128 (m ((c.tc : Thread nD τ).loc main_arg4)) shapeCasts_S128_S1x128 := by
  dsimp only [Gen.V, Gen.hostOps0]; after_results; rfl
/-- The second bias as the region finds it. -/
theorem V_b2 (c : Dev nD) : (V m c main_call0_v1 : S1x32.Idx → EReal) = shapeCast S1x32 (m ((c.tc : Thread nD τ).loc main_arg7)) shapeCasts_S32_S1x32 := by
  dsimp only [Gen.V, Gen.hostOps0]; after_results; rfl

theorem blk4_apply (c : Dev nD) (t : Fin cfg0.N) (j : Fin 128) : iblk m c 4 t (ix2 (0 : Fin 1) j) = ab1 m c j := by
  show V m c main_call0_v0 (((cfg0.win 4).blk t).view.emb (ix2 (0 : Fin 1) j)) = _
  have e : ((cfg0.win 4).blk t).view.emb (ix2 (0 : Fin 1) j) = (ix2 (0 : Fin 1) j : S1x128.Idx) := funext fun a => Fin.ext (by
    match a with
    | ⟨0, _⟩ => show win0_4.index t (0 : Fin 2) * 1 + 1 * 0 = 0; rw [(idx4 t).1]
    | ⟨1, _⟩ => show win0_4.index t (1 : Fin 2) * 128 + 1 * j.val = j.val; rw [(idx4 t).2]; omega)
  rw [e, V_b1, shapeCast_a_1a_apply]; rfl

theorem blk7_apply (c : Dev nD) (t : Fin cfg0.N) (q : Fin 32) : iblk m c 7 t (ix2 (0 : Fin 1) q) = ab2 m c q := by
  show V m c main_call0_v1 (((cfg0.win 7).blk t).view.emb (ix2 (0 : Fin 1) q)) = _
  have e : ((cfg0.win 7).blk t).view.emb (ix2 (0 : Fin 1) q) = (ix2 (0 : Fin 1) q : S1x32.Idx) := funext fun a => Fin.ext (by
    match a with
    | ⟨0, _⟩ => show win0_7.index t (0 : Fin 2) * 1 + 1 * 0 = 0; rw [(idx7 t).1]
    | ⟨1, _⟩ => show win0_7.index t (1 : Fin 2) * 32 + 1 * q.val = q.val; rw [(idx7 t).2]; omega)
  rw [e, V_b2, shapeCast_a_1a_apply]; rfl

end Cert.KernelIdeal.KVal

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.LibKeepdims.lean ====
/-
  Column forms of the two layout operations a row statistic kept as a column goes through: a vector of one entry
  per row written as a one-column matrix, and a one-column matrix repeated along every column of a wider one.
  Both are read at an index: the entry of the result at (row, column) is the operand's entry of that row.
-/
import Idealize.ShloMosaic.Lib.Pipeline.Value
import Idealize.ShloMosaic.Lib.ValueIdx

namespace Idealize.ShloMosaic.ValueIdx

variable {α : Type}

/-- An `[a]` vector cast to the column `[a, 1]` reads, at `(p, u)`, the operand at `p`: in row-major order the
    column's entry `(p, u)` is entry `p · 1 + u = p` of the vector, the unit coordinate `u` being `0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibReduceInf.lean ====
/-
  Minimum and maximum reductions read at the extended reals as infimum and supremum.

  At the exact values a float minimum is `min` and a float maximum is `max` on the extended reals, the
  pattern of `+∞` is the top element and the pattern of `-∞` the bottom. A fold of `min` from the top over
  a finite set is therefore the infimum over the set, and a fold of `max` from the bottom the supremum.
  The lemmas below say so of a host reduction and of a kernel's vector reduction, over the set of source
  indices that reduce to a result index, over all source indices when every result axis has size one,
  and over the coordinates of the one reduced axis.
-/
import Idealize.ShloMosaic.PureOps.Ideal
import Idealize.ShloMosaic.PureOps.Ideal.Laws
import Idealize.ShloMosaic.PureOps.Reduce
import Idealize.ShloMosaic.Lib.ValueIdx
import Mathlib.Order.CompleteLattice.Finset

noncomputable section

namespace Cert.LibReduceInf

open Idealize.ShloMosaic Idealize.ShloMosaic.ValueIdx

/-- The binary32 pattern of `+∞` denotes the top extended real. -/
theorem ofBits_posInf_f32 : Ideal.ofBits .f32 0x7F800000#32 = ⊤ := by
  simp [Ideal.ofBits, Ideal.ieee]

/-- The binary32 pattern of `-∞` denotes the bottom extended real. -/
theorem ofBits_negInf_f32 : Ideal.ofBits .f32 0xFF800000#32 = ⊥ := by
  simp [Ideal.ofBits, Ideal.ieee]

/-- A fold from the top element of an operation that is `min` is the infimum over the set. -/
theorem fold_eq_inf {ι : Type} (op : EReal → EReal → EReal) [Std.Commutative op] [Std.Associative op]
    (hop : ∀ x y, op x y = min x y) (S : Finset ι) (f : ι → EReal) : S.fold op ⊤ f = S.inf f := by
  induction S using Finset.cons_induction with
  | empty => simp
  | cons a S ha ih => rw [Finset.fold_cons, Finset.inf_cons, ih, hop]

/-- A fold from the bottom element of an operation that is `max` is the supremum over the set. -/
theorem fold_eq_sup {ι : Type} (op : EReal → EReal → EReal) [Std.Commutative op] [Std.Associative op]
    (hop : ∀ x y, op x y = max x y) (S : Finset ι) (f : ι → EReal) : S.fold op ⊥ f = S.sup f := by
  induction S using Finset.cons_induction with
  | empty => simp
  | cons a S ha ih => rw [Finset.fold_cons, Finset.sup_cons, ih, hop]

/-! ## The host's reduction -/

/-- A host reduction with a minimum body from `+∞`, at a result index: the infimum over the set of
    source indices that reduce to it. -/
theorem hostReduce_minimumf_eq_inf {s t u : Shape} {axes : List (Fin s.rank)} (x : s.Idx → EReal)
    (h : s.ReducesTo axes t) (hu : 0 < u.numel) (j : t.Idx) :
    Host.reduce (FloatOps.minimumf (F := Ideal) (φ := .f32)) x (constant (F := Ideal) u .f32 0x7F800000#32) h hu j
      = (Finset.univ.filter fun i => h.drop i = j).inf x := by
  rw [Host.reduce_eq_fold]
  show Finset.fold _ (Ideal.ofBits .f32 0x7F800000#32) x _ = _
  rw [ofBits_posInf_f32, fold_eq_inf (FloatOps.minimumf (F := Ideal) (φ := .f32)) (fun _ _ => rfl)]

/-- A host reduction with a maximum body from `-∞`, at a result index: the supremum over the set of
    source indices that reduce to it. -/
theorem hostReduce_maximumf_eq_sup {s t u : Shape} {axes : List (Fin s.rank)} (x : s.Idx → EReal)
    (h : s.ReducesTo axes t) (hu : 0 < u.numel) (j : t.Idx) :
    Host.reduce (FloatOps.maximumf (F := Ideal) (φ := .f32)) x (constant (F := Ideal) u .f32 0xFF800000#32) h hu j
      = (Finset.univ.filter fun i => h.drop i = j).sup x := by
  rw [Host.reduce_eq_fold]
  show Finset.fold _ (Ideal.ofBits .f32 0xFF800000#32) x _ = _
  rw [ofBits_negInf_f32, fold_eq_sup (FloatOps.maximumf (F := Ideal) (φ := .f32)) (fun _ _ => rfl)]

/-- Into a shape whose every axis has size one every source index reduces to the one result index. -/
theorem filter_drop_eq_univ {s t : Shape} {axes : List (Fin s.rank)} (h : s.ReducesTo axes t)
    (ht : ∀ b, t.size b = 1) (j : t.Idx) : (Finset.univ.filter fun i => h.drop i = j) = Finset.univ :=
  Finset.filter_true_of_mem fun i _ => funext fun b => Fin.ext (by
    have := (h.drop i b).isLt; have := (j b).isLt; have := ht b; omega)

/-- A host reduction with a minimum body from `+∞` into a shape whose every axis has size one (a full
    reduction to rank zero, where the size hypothesis is vacuous): the infimum of the whole operand. -/
theorem hostReduce_minimumf_total {s t u : Shape} {axes : List (Fin s.rank)} (x : s.Idx → EReal)
    (h : s.ReducesTo axes t) (ht : ∀ b, t.size b = 1) (hu : 0 < u.numel) :
    Host.reduce (FloatOps.minimumf (F := Ideal) (φ := .f32)) x (constant (F := Ideal) u .f32 0x7F800000#32) h hu
      = fun _ => ⨅ i, x i := by
  funext j
  rw [hostReduce_minimumf_eq_inf, filter_drop_eq_univ h ht, Finset.inf_univ_eq_iInf]

/-- A host reduction with a maximum body from `-∞` into a shape whose every axis has size one: the
    supremum of the whole operand. -/
theorem hostReduce_maximumf_total {s t u : Shape} {axes : List (Fin s.rank)} (x : s.Idx → EReal)
    (h : s.ReducesTo axes t) (ht : ∀ b, t.size b = 1) (hu : 0 < u.numel) :
    Host.reduce (FloatOps.maximumf (F := Ideal) (φ := .f32)) x (constant (F := Ideal) u .f32 0xFF800000#32) h hu
      = fun _ => ⨆ i, x i := by
  funext j
  rw [hostReduce_maximumf_eq_sup, filter_drop_eq_univ h ht, Finset.sup_univ_eq_iSup]

/-! ## A kernel's vector reduction -/

/-- A kernel's minimum reduction from `+∞`, at a result index: the infimum over the set of source
    indices that reduce to it. -/
theorem multiReduction_minimumf_eq_inf {s t : Shape} {axes : List (Fin s.rank)} (src : FVec Ideal s .f32)
    (h : s.Reduces axes t) (hφ : FKind.Formats .f32) (hacc : (0x7F800000#32 : BitVec 32) = 0x7F800000#32) (j : t.Idx) :
    multiReduction (F := Ideal) .minimumf axes t src 0x7F800000#32 h hφ hacc j
      = (Finset.univ.filter fun i => h.drop i = j).inf src := by
  refine (multiReduction_minimumf_eq_fold src 0x7F800000#32 h hφ hacc j).trans ?_
  show Finset.fold _ (Ideal.ofBits .f32 0x7F800000#32) src _ = _
  rw [ofBits_posInf_f32, fold_eq_inf (FloatOps.minimumf (F := Ideal) (φ := .f32)) (fun _ _ => rfl)]

/-- A kernel's maximum reduction from `-∞`, at a result index: the supremum over the set of source
    indices that reduce to it. -/
theorem multiReduction_maximumf_eq_sup {s t : Shape} {axes : List (Fin s.rank)} (src : FVec Ideal s .f32)
    (h : s.Reduces axes t) (hφ : FKind.Formats .f32) (hacc : (0xFF800000#32 : BitVec 32) = 0xFF800000#32) (j : t.Idx) :
    multiReduction (F := Ideal) .maximumf axes t src 0xFF800000#32 h hφ hacc j
      = (Finset.univ.filter fun i => h.drop i = j).sup src := by
  refine (multiReduction_maximumf_eq_fold src 0xFF800000#32 h hφ hacc j).trans ?_
  show Finset.fold _ (Ideal.ofBits .f32 0xFF800000#32) src _ = _
  rw [ofBits_negInf_f32, fold_eq_sup (FloatOps.maximumf (F := Ideal) (φ := .f32)) (fun _ _ => rfl)]

/-- A kernel's minimum reduction over ONE axis from `+∞`, at a result index `j`: the infimum over that
    axis's coordinates `k` of the source at `j` with `k` inserted. -/
theorem multiReduction_minimumf_single {s t : Shape} {a : Fin s.rank} (src : FVec Ideal s .f32)
    (h : s.Reduces [a] t) (hφ : FKind.Formats .f32) (hacc : (0x7F800000#32 : BitVec 32) = 0x7F800000#32) (j : t.Idx) :
    multiReduction (F := Ideal) .minimumf [a] t src 0x7F800000#32 h hφ hacc j
      = ⨅ k : Fin (s.size a), src (h.lift j k) := by
  refine (multiReduction_minimumf_eq_fold src 0x7F800000#32 h hφ hacc j).trans ?_
  rw [h.fold_filter_drop_single]
  show Finset.fold _ (Ideal.ofBits .f32 0x7F800000#32) _ _ = _
  rw [ofBits_posInf_f32, fold_eq_inf (FloatOps.minimumf (F := Ideal) (φ := .f32)) (fun _ _ => rfl), Finset.inf_univ_eq_iInf]
  rfl

/-- A kernel's maximum reduction over ONE axis from `-∞`, at a result index `j`: the supremum over that
    axis's coordinates `k` of the source at `j` with `k` inserted. -/
theorem multiReduction_maximumf_single {s t : Shape} {a : Fin s.rank} (src : FVec Ideal s .f32)
    (h : s.Reduces [a] t) (hφ : FKind.Formats .f32) (hacc : (0xFF800000#32 : BitVec 32) = 0xFF800000#32) (j : t.Idx) :
    multiReduction (F := Ideal) .maximumf [a] t src 0xFF800000#32 h hφ hacc j
      = ⨆ k : Fin (s.size a), src (h.lift j k) := by
  refine (multiReduction_maximumf_eq_fold src 0xFF800000#32 h hφ hacc j).trans ?_
  rw [h.fold_filter_drop_single]
  show Finset.fold _ (Ideal.ofBits .f32 0xFF800000#32) _ _ = _
  rw [ofBits_negInf_f32, fold_eq_sup (FloatOps.maximumf (F := Ideal) (φ := .f32)) (fun _ _ => rfl), Finset.sup_univ_eq_iSup]
  rfl

end Cert.LibReduceInf

end
-- ==== Proof.LibLastAxis.lean ====
/-
  Reductions along the last axis read at an index, on the extended reals (floats as extended reals, operations exact):
  general facts, independent of any program.

  For a matrix `[a, b]` the vector unit's sum and maximum over axis 1 leave one entry per row: at row `p` the sum is the
  sum over the columns `k` of the entry `(p, k)`, and the maximum taken from −∞ is the fold of `max` over those entries.
  For a rank-3 array `[n0, n1, n2]` the host's reduce with a maximum body over axis 2 leaves, at `(b, c)`, the fold of
  `max`, from the initial value's element, over the entries `(b, c, k)`.
-/
import Idealize.ShloMosaic.PureOps.Ideal
import Idealize.ShloMosaic.PureOps.Ideal.Laws
import Idealize.ShloMosaic.Lib.ValueIdx

noncomputable section

open scoped BigOperators

namespace Cert.LibLastAxis

open Idealize.ShloMosaic Idealize.ShloMosaic.ValueIdx

/-- Along axis 1 of a matrix, row `p` with column `k` put back is the entry `(p, k)`. -/
theorem lift_row {a b : ℕ} (hred : (⟨2, ![a, b]⟩ : Shape).Reduces [1] ⟨1, ![a]⟩) (p : Fin a) (k : Fin b) :
    hred.lift (ix1 p) k = ix2 p k := by
  funext ax
  match ax with
  | ⟨0, _⟩ => exact Fin.ext rfl
  | ⟨1, _⟩ => exact Fin.ext rfl

/-- The vector unit's sum over axis 1 of an `[a, b]` vector, from `+0.0`, read at row `p`: the sum over the columns. -/
theorem rowSum_apply {a b : ℕ} (v : FVec Ideal ⟨2, ![a, b]⟩ .f32)
    (hred : (⟨2, ![a, b]⟩ : Shape).Reduces [1] ⟨1, ![a]⟩) (hφ : FKind.Formats .f32)
    (hacc : (0x00000000#32 : BitVec 32) = 0x00000000#32) (p : Fin a) :
    multiReduction (F := Ideal) .add [1] ⟨1, ![a]⟩ v 0x00000000#32 hred hφ hacc (ix1 p) = ∑ k : Fin b, v (ix2 p k) :=
  (Ideal.multiReduction_add_single (φ := .f32) v 0x00000000#32 hred hφ hacc (ix1 p)).trans
    (Finset.sum_congr rfl fun k _ => congrArg v (lift_row hred p k))

/-- The vector unit's maximum over axis 1 of an `[a, b]` vector, from −∞, read at row `p`: the fold of `max` over the
    columns, started at the value of the word for −∞. -/
theorem rowMax_apply {a b : ℕ} (v : FVec Ideal ⟨2, ![a, b]⟩ .f32)
    (hred : (⟨2, ![a, b]⟩ : Shape).Reduces [1] ⟨1, ![a]⟩) (hφ : FKind.Formats .f32)
    (hacc : (0xFF800000#32 : BitVec 32) = 0xFF800000#32) (p : Fin a) :
    multiReduction (F := Ideal) .maximumf [1] ⟨1, ![a]⟩ v 0xFF800000#32 hred hφ hacc (ix1 p)
      = (Finset.univ : Finset (Fin b)).fold max (Ideal.ofBits .f32 0xFF800000#32) (fun k => v (ix2 p k)) :=
  (Ideal.multiReduction_maximumf_single (φ := .f32) v 0xFF800000#32 hred hφ hacc (ix1 p)).trans
    (congrArg (fun f => Finset.fold max (Ideal.ofBits .f32 0xFF800000#32) f (Finset.univ : Finset (Fin b)))
      (funext fun k => congrArg v (lift_row hred p k)))

/-- Along axis 2 of a rank-3 array, `(b, c)` with coordinate `k` put back is the entry `(b, c, k)`. -/
theorem lift_last3 {n0 n1 n2 : ℕ} (hred : (⟨3, ![n0, n1, n2]⟩ : Shape).Reduces [2] ⟨2, ![n0, n1]⟩)
    (b : Fin n0) (c : Fin n1) (k : Fin n2) : hred.lift (ix2 b c) k = ix3 b c k := by
  funext ax
  match ax with
  | ⟨0, _⟩ => exact Fin.ext rfl
  | ⟨1, _⟩ => exact Fin.ext rfl
  | ⟨2, _⟩ => exact Fin.ext rfl

/-- The host's reduce with a maximum body over axis 2 of an `[n0, n1, n2]` array, read at `(b, c)`: the fold of `max`,
    from the initial value's one element, over the entries `(b, c, k)`. -/
theorem hostMax_last3_apply {n0 n1 n2 : ℕ} (x : FVec Ideal ⟨3, ![n0, n1, n2]⟩ .f32) (init : FVec Ideal ⟨0, ![]⟩ .f32)
    (h' : (⟨3, ![n0, n1, n2]⟩ : Shape).ReducesTo [2] ⟨2, ![n0, n1]⟩)
    (hred : (⟨3, ![n0, n1, n2]⟩ : Shape).Reduces [2] ⟨2, ![n0, n1]⟩)
    (hu : 0 < (⟨0, ![]⟩ : Shape).numel) (b : Fin n0) (c : Fin n1) :
    Host.reduce (FloatOps.maximumf (F := Ideal) (φ := .f32)) x init h' hu (ix2 b c)
      = (Finset.univ : Finset (Fin n2)).fold max (init (Shape.Idx.first hu)) (fun k => x (ix3 b c k)) := by
  rw [Host.reduce_eq_fold_single FloatOps.maximumf x init h' hred hu]
  exact congrArg (fun f => Finset.fold max (init (Shape.Idx.first hu)) f (Finset.univ : Finset (Fin n2)))
    (funext fun k => congrArg x (lift_last3 hred b c k))

end Cert.LibLastAxis

end
-- ==== Proof.Spec.lean ====
import Mathlib.Data.EReal.Basic
import Mathlib.Data.EReal.Operations
import Mathlib.Algebra.BigOperators.Ring.Finset
import Mathlib.Order.CompleteLattice.Basic
import Mathlib.Tactic.Ring
import Idealize.ShloMosaic.PureOps.Ideal
import Idealize.ShloMosaic.PureOps.Ideal.Laws

/-!
  A two-layer Chebyshev graph convolution followed by a row-wise log-softmax, over the extended reals.

  With `x : [10000,128]`, `adj : [10000,10000]`, `W1_0, W1_1 : [128,128]`, `b1 : [128]`,
  `W2_0, W2_1 : [128,32]`, `b2 : [32]`:

    h   = max ((x·W1_0 + (adj·x)·W1_1) + b1) 0
    o_R = (h·W2_0 + (adj·h)·W2_1) + b2            (one grouping of the second layer)
    o_K = (h·W2_0 + b2) + adj·(h·W2_1)            (the other grouping)

  The two groupings agree when every input entry is a real number: then every entry of `h` is a real
  number too, and the re-association of the matrix product is the distributive law over `ℝ` (it fails at
  `±∞` in the extended reals).
-/

noncomputable section

namespace Cert.ChebSpec

open Idealize.ShloMosaic

/-- The hidden layer: `max ((x·W1_0 + (adj·x)·W1_1) + b1) 0` at row `r`, column `j`. -/
def hidden (X : Fin 10000 → Fin 128 → EReal) (A : Fin 10000 → Fin 10000 → EReal)
    (W10 W11 : Fin 128 → Fin 128 → EReal) (b1 : Fin 128 → EReal) (r : Fin 10000) (j : Fin 128) : EReal :=
  max (((∑ k : Fin 128, X r k * W10 k j) + (∑ k : Fin 128, (∑ l : Fin 10000, A r l * X l k) * W11 k j)) + b1 j) 0

/-- The second layer as the reference groups it: `(h·W2_0 + (adj·h)·W2_1) + b2`. -/
def logitsRef (X : Fin 10000 → Fin 128 → EReal) (A : Fin 10000 → Fin 10000 → EReal)
    (W10 W11 : Fin 128 → Fin 128 → EReal) (b1 : Fin 128 → EReal)
    (W20 W21 : Fin 128 → Fin 32 → EReal) (b2 : Fin 32 → EReal) (r : Fin 10000) (q : Fin 32) : EReal :=
  ((∑ k : Fin 128, hidden X A W10 W11 b1 r k * W20 k q)
    + (∑ k : Fin 128, (∑ l : Fin 10000, A r l * hidden X A W10 W11 b1 l k) * W21 k q)) + b2 q

/-- The second layer as the kernel groups it: `(h·W2_0 + b2) + adj·(h·W2_1)`. -/
def logitsKer (X : Fin 10000 → Fin 128 → EReal) (A : Fin 10000 → Fin 10000 → EReal)
    (W10 W11 : Fin 128 → Fin 128 → EReal) (b1 : Fin 128 → EReal)
    (W20 W21 : Fin 128 → Fin 32 → EReal) (b2 : Fin 32 → EReal) (r : Fin 10000) (q : Fin 32) : EReal :=
  ((∑ j : Fin 128, hidden X A W10 W11 b1 r j * W20 j q) + b2 q)
    + (∑ l : Fin 10000, A r l * (∑ j : Fin 128, hidden X A W10 W11 b1 l j * W21 j q))

/-- The log-softmax of one row: `(o q - M) - log (∑ q', exp (o q' - M))` with `M` the row's supremum. -/
def logSoftmax (o : Fin 32 → EReal) (q : Fin 32) : EReal :=
  (o q - ⨆ q' : Fin 32, o q') - Ideal.log (∑ q' : Fin 32, Ideal.exp (o q' - ⨆ q'' : Fin 32, o q''))

/-! ## Real numbers inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of a maximum of reals is the maximum of the coercions. -/
theorem coe_max (a b : ℝ) : ((max a b : ℝ) : EReal) = max (a : EReal) (b : EReal) :=
  EReal.coe_strictMono.monotone.map_max

/-- The hidden layer over the reals. -/
def hiddenR (x : Fin 10000 → Fin 128 → ℝ) (a : Fin 10000 → Fin 10000 → ℝ)
    (w10 w11 : Fin 128 → Fin 128 → ℝ) (c1 : Fin 128 → ℝ) (r : Fin 10000) (j : Fin 128) : ℝ :=
  max (((∑ k : Fin 128, x r k * w10 k j) + (∑ k : Fin 128, (∑ l : Fin 10000, a r l * x l k) * w11 k j)) + c1 j) 0

/-- On real inputs the hidden layer is the coercion of the real hidden layer. -/
theorem hidden_coe (x : Fin 10000 → Fin 128 → ℝ) (a : Fin 10000 → Fin 10000 → ℝ)
    (w10 w11 : Fin 128 → Fin 128 → ℝ) (c1 : Fin 128 → ℝ) (r : Fin 10000) (j : Fin 128) :
    hidden (fun r k => (x r k : EReal)) (fun r l => (a r l : EReal)) (fun k j => (w10 k j : EReal))
      (fun k j => (w11 k j : EReal)) (fun j => (c1 j : EReal)) r j = (hiddenR x a w10 w11 c1 r j : EReal) := by
  simp only [hidden, hiddenR, coe_max, EReal.coe_add, coe_sum, EReal.coe_mul, EReal.coe_zero]

/-- Re-association of a matrix product over the reals: `A·(H·W) = (A·H)·W`, entry by entry. -/
theorem reassoc {ι κ : Type*} [Fintype ι] [Fintype κ] (a : ι → ℝ) (h : ι → κ → ℝ) (w : κ → ℝ) :
    ∑ l : ι, a l * (∑ j : κ, h l j * w j) = ∑ k : κ, (∑ l : ι, a l * h l k) * w k := by
  simp only [Finset.mul_sum, Finset.sum_mul]
  rw [Finset.sum_comm]
  exact Finset.sum_congr rfl fun k _ => Finset.sum_congr rfl fun l _ => (mul_assoc _ _ _).symm

/-- The two groupings of the second layer agree over the reals. -/
theorem logits_real (hh : Fin 10000 → Fin 128 → ℝ) (a : Fin 10000 → Fin 10000 → ℝ)
    (w20 w21 : Fin 128 → Fin 32 → ℝ) (c2 : Fin 32 → ℝ) (r : Fin 10000) (q : Fin 32) :
    ((∑ j : Fin 128, hh r j * w20 j q) + c2 q) + (∑ l : Fin 10000, a r l * (∑ j : Fin 128, hh l j * w21 j q))
      = ((∑ k : Fin 128, hh r k * w20 k q) + (∑ k : Fin 128, (∑ l : Fin 10000, a r l * hh l k) * w21 k q)) + c2 q := by
  rw [reassoc (fun l => a r l) hh (fun j => w21 j q)]
  ring

/-- The two groupings of the second layer agree on real inputs. -/
theorem logitsKer_eq_logitsRef_coe (x : Fin 10000 → Fin 128 → ℝ) (a : Fin 10000 → Fin 10000 → ℝ)
    (w10 w11 : Fin 128 → Fin 128 → ℝ) (c1 : Fin 128 → ℝ) (w20 w21 : Fin 128 → Fin 32 → ℝ) (c2 : Fin 32 → ℝ)
    (r : Fin 10000) (q : Fin 32) :
    logitsKer (fun r k => (x r k : EReal)) (fun r l => (a r l : EReal)) (fun k j => (w10 k j : EReal))
        (fun k j => (w11 k j : EReal)) (fun j => (c1 j : EReal)) (fun j q => (w20 j q : EReal))
        (fun j q => (w21 j q : EReal)) (fun q => (c2 q : EReal)) r q
      = logitsRef (fun r k => (x r k : EReal)) (fun r l => (a r l : EReal)) (fun k j => (w10 k j : EReal))
        (fun k j => (w11 k j : EReal)) (fun j => (c1 j : EReal)) (fun j q => (w20 j q : EReal))
        (fun j q => (w21 j q : EReal)) (fun q => (c2 q : EReal)) r q := by
  simp only [logitsKer, logitsRef, hidden_coe]
  simp only [← EReal.coe_mul, ← coe_sum, ← EReal.coe_add]
  exact congrArg _ (logits_real (hiddenR x a w10 w11 c1) a w20 w21 c2 r q)

/-- The two groupings of the second layer agree whenever every input entry is a real number. -/
theorem logitsKer_eq_logitsRef (X : Fin 10000 → Fin 128 → EReal) (A : Fin 10000 → Fin 10000 → EReal)
    (W10 W11 : Fin 128 → Fin 128 → EReal) (b1 : Fin 128 → EReal)
    (W20 W21 : Fin 128 → Fin 32 → EReal) (b2 : Fin 32 → EReal)
    (hX : ∀ r k, ∃ a : ℝ, X r k = (a : EReal)) (hA : ∀ r l, ∃ a : ℝ, A r l = (a : EReal))
    (hW10 : ∀ k j, ∃ a : ℝ, W10 k j = (a : EReal)) (hW11 : ∀ k j, ∃ a : ℝ, W11 k j = (a : EReal))
    (hb1 : ∀ j, ∃ a : ℝ, b1 j = (a : EReal))
    (hW20 : ∀ j q, ∃ a : ℝ, W20 j q = (a : EReal)) (hW21 : ∀ j q, ∃ a : ℝ, W21 j q = (a : EReal))
    (hb2 : ∀ q, ∃ a : ℝ, b2 q = (a : EReal)) :
    logitsKer X A W10 W11 b1 W20 W21 b2 = logitsRef X A W10 W11 b1 W20 W21 b2 := by
  choose x hx using hX
  choose a ha using hA
  choose w10 hw10 using hW10
  choose w11 hw11 using hW11
  choose c1 hc1 using hb1
  choose w20 hw20 using hW20
  choose w21 hw21 using hW21
  choose c2 hc2 using hb2
  obtain rfl : X = fun r k => (x r k : EReal) := funext fun r => funext fun k => hx r k
  obtain rfl : A = fun r l => (a r l : EReal) := funext fun r => funext fun l => ha r l
  obtain rfl : W10 = fun k j => (w10 k j : EReal) := funext fun k => funext fun j => hw10 k j
  obtain rfl : W11 = fun k j => (w11 k j : EReal) := funext fun k => funext fun j => hw11 k j
  obtain rfl : b1 = fun j => (c1 j : EReal) := funext fun j => hc1 j
  obtain rfl : W20 = fun j q => (w20 j q : EReal) := funext fun j => funext fun q => hw20 j q
  obtain rfl : W21 = fun j q => (w21 j q : EReal) := funext fun j => funext fun q => hw21 j q
  obtain rfl : b2 = fun q => (c2 q : EReal) := funext fun q => hc2 q
  funext r q
  exact logitsKer_eq_logitsRef_coe x a w10 w11 c1 w20 w21 c2 r q

end Cert.ChebSpec

end
-- ==== Proof.Payload.lean ====
/-
  The body's four payloads at an index, over the extended reals.  With h the hidden rows of a point,
    h (p, j)  = max ((Σ_k x_rows (p, k) W1_0 (k, j) + Σ_k (Σ_l adj (p, l) x (l, k)) W1_1 (k, j)) + b1 j) 0,
  the first scratch payload is g (p, q) = Σ_j h (p, j) W2_1 (j, q), the second hw (p, q) = Σ_j h (p, j) W2_0 (j, q) + b2 q,
  and the output payload is, row by row, the log-softmax of o (p, q) = hw (p, q) + Σ_l adj (p, l) g (l, q): each matrix
  product into a zero accumulator is the plain sum over the contracted index, a row broadcast reads the row's entry, and
  a maximum over a row taken from -∞ is the row's supremum.
-/
import proofs.«111254_g31370441130263_cont_sun_m_318_18_alg».proof.Proof.Gen.KernelIdeal.Skeleton
import proofs.«111254_g31370441130263_cont_sun_m_318_18_alg».proof.Proof.LibDense
import proofs.«111254_g31370441130263_cont_sun_m_318_18_alg».proof.Proof.LibKeepdims
import proofs.«111254_g31370441130263_cont_sun_m_318_18_alg».proof.Proof.LibReduceInf
import proofs.«111254_g31370441130263_cont_sun_m_318_18_alg».proof.Proof.LibLastAxis
import proofs.«111254_g31370441130263_cont_sun_m_318_18_alg».proof.Proof.Spec
import Idealize.ShloMosaic.Lib.ValueLayout
import Idealize.ShloMosaic.Lib.Pipeline.Value

set_option maxRecDepth 16384

noncomputable section

namespace Cert.KernelIdeal.Pay

open Cert.KernelIdeal Cert.KernelIdeal.Gen
open Idealize.ShloMosaic Idealize.ShloMosaic.ValueIdx
open scoped BigOperators

/-! ## The four matrix products -/

theorem mmAX_l0 (i : S400x128.Idx) (k : dot_S400x10000_S10000x128_S400x128_1_0_0_1_n_n.contr.Idx) : (dot_S400x10000_S10000x128_S400x128_1_0_0_1_n_n.lhsIdx i k 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem mmAX_r1 (i : S400x128.Idx) (k : dot_S400x10000_S10000x128_S400x128_1_0_0_1_n_n.contr.Idx) : (dot_S400x10000_S10000x128_S400x128_1_0_0_1_n_n.rhsIdx i k 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl
/-- The adjacency block times the feature matrix, into a zero accumulator, at `(e, q)`: the sum over the contracted index. -/
theorem mmAX_apply (a : FVec Ideal S400x10000 .f32) (w : FVec Ideal S10000x128 .f32) (e : Fin 400) (q : Fin 128) :
    matmul dot_S400x10000_S10000x128_S400x128_1_0_0_1_n_n none a w (constant (F := Ideal) S400x128 .f32 0x00000000#32) (ix2 e q) = ∑ k : Fin 10000, a (ix2 e k) * w (ix2 k q) :=
  matmul_zero_plain_apply dot_S400x10000_S10000x128_S400x128_1_0_0_1_n_n none rfl rfl mmAX_l0 (fun i k => dot_S400x10000_S10000x128_S400x128_1_0_0_1_n_n.lhsIdx_val_of_single rfl i k)
    (fun i k => dot_S400x10000_S10000x128_S400x128_1_0_0_1_n_n.rhsIdx_val_of_single rfl i k) mmAX_r1 a w e q

theorem mmHid_l0 (i : S400x128.Idx) (k : dot_S400x128_S128x128_S400x128_1_0_0_1_n_n.contr.Idx) : (dot_S400x128_S128x128_S400x128_1_0_0_1_n_n.lhsIdx i k 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem mmHid_r1 (i : S400x128.Idx) (k : dot_S400x128_S128x128_S400x128_1_0_0_1_n_n.contr.Idx) : (dot_S400x128_S128x128_S400x128_1_0_0_1_n_n.rhsIdx i k 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl
/-- The 400 feature rows times a 128 x 128 weight, into a zero accumulator, at `(e, q)`: the sum over the contracted index. -/
theorem mmHid_apply (a : FVec Ideal S400x128 .f32) (w : FVec Ideal S128x128 .f32) (e : Fin 400) (q : Fin 128) :
    matmul dot_S400x128_S128x128_S400x128_1_0_0_1_n_n none a w (constant (F := Ideal) S400x128 .f32 0x00000000#32) (ix2 e q) = ∑ k : Fin 128, a (ix2 e k) * w (ix2 k q) :=
  matmul_zero_plain_apply dot_S400x128_S128x128_S400x128_1_0_0_1_n_n none rfl rfl mmHid_l0 (fun i k => dot_S400x128_S128x128_S400x128_1_0_0_1_n_n.lhsIdx_val_of_single rfl i k)
    (fun i k => dot_S400x128_S128x128_S400x128_1_0_0_1_n_n.rhsIdx_val_of_single rfl i k) mmHid_r1 a w e q

theorem mmOut_l0 (i : S400x32.Idx) (k : dot_S400x128_S128x32_S400x32_1_0_0_1_n_n.contr.Idx) : (dot_S400x128_S128x32_S400x32_1_0_0_1_n_n.lhsIdx i k 0).val = (i 0).val := by
  unfold DotDims.lhsIdx
  rw [dif_neg (show ¬(0 : Fin S400x128.rank) ∈ dot_S400x128_S128x32_S400x32_1_0_0_1_n_n.lhsBatch by decide), dif_pos (show (0 : Fin S400x128.rank) ∈ dot_S400x128_S128x32_S400x32_1_0_0_1_n_n.lhsNonContracting by decide)]
  rfl
theorem mmOut_r1 (i : S400x32.Idx) (k : dot_S400x128_S128x32_S400x32_1_0_0_1_n_n.contr.Idx) : (dot_S400x128_S128x32_S400x32_1_0_0_1_n_n.rhsIdx i k 1).val = (i 1).val := by
  unfold DotDims.rhsIdx
  rw [dif_neg (show ¬(1 : Fin S128x32.rank) ∈ dot_S400x128_S128x32_S400x32_1_0_0_1_n_n.rhsBatch by decide), dif_pos (show (1 : Fin S128x32.rank) ∈ dot_S400x128_S128x32_S400x32_1_0_0_1_n_n.rhsNonContracting by decide)]
  rfl
/-- The 400 hidden rows times a 128 x 32 weight, into a zero accumulator, at `(e, q)`: the sum over the contracted index. -/
theorem mmOut_apply (a : FVec Ideal S400x128 .f32) (w : FVec Ideal S128x32 .f32) (e : Fin 400) (q : Fin 32) :
    matmul dot_S400x128_S128x32_S400x32_1_0_0_1_n_n none a w (constant (F := Ideal) S400x32 .f32 0x00000000#32) (ix2 e q) = ∑ k : Fin 128, a (ix2 e k) * w (ix2 k q) :=
  matmul_zero_plain_apply dot_S400x128_S128x32_S400x32_1_0_0_1_n_n none rfl rfl mmOut_l0 (fun i k => dot_S400x128_S128x32_S400x32_1_0_0_1_n_n.lhsIdx_val_of_single rfl i k)
    (fun i k => dot_S400x128_S128x32_S400x32_1_0_0_1_n_n.rhsIdx_val_of_single rfl i k) mmOut_r1 a w e q

theorem mmAG_l0 (i : S400x32.Idx) (k : dot_S400x10000_S10000x32_S400x32_1_0_0_1_n_n.contr.Idx) : (dot_S400x10000_S10000x32_S400x32_1_0_0_1_n_n.lhsIdx i k 0).val = (i 0).val := by
  unfold DotDims.lhsIdx
  rw [dif_neg (show ¬(0 : Fin S400x10000.rank) ∈ dot_S400x10000_S10000x32_S400x32_1_0_0_1_n_n.lhsBatch by decide), dif_pos (show (0 : Fin S400x10000.rank) ∈ dot_S400x10000_S10000x32_S400x32_1_0_0_1_n_n.lhsNonContracting by decide)]
  rfl
theorem mmAG_r1 (i : S400x32.Idx) (k : dot_S400x10000_S10000x32_S400x32_1_0_0_1_n_n.contr.Idx) : (dot_S400x10000_S10000x32_S400x32_1_0_0_1_n_n.rhsIdx i k 1).val = (i 1).val := by
  unfold DotDims.rhsIdx
  rw [dif_neg (show ¬(1 : Fin S10000x32.rank) ∈ dot_S400x10000_S10000x32_S400x32_1_0_0_1_n_n.rhsBatch by decide), dif_pos (show (1 : Fin S10000x32.rank) ∈ dot_S400x10000_S10000x32_S400x32_1_0_0_1_n_n.rhsNonContracting by decide)]
  rfl
/-- The adjacency block times the complete g, into a zero accumulator, at `(e, q)`: the sum over the contracted index. -/
theorem mmAG_apply (a : FVec Ideal S400x10000 .f32) (w : FVec Ideal S10000x32 .f32) (e : Fin 400) (q : Fin 32) :
    matmul dot_S400x10000_S10000x32_S400x32_1_0_0_1_n_n none a w (constant (F := Ideal) S400x32 .f32 0x00000000#32) (ix2 e q) = ∑ k : Fin 10000, a (ix2 e k) * w (ix2 k q) :=
  matmul_zero_plain_apply dot_S400x10000_S10000x32_S400x32_1_0_0_1_n_n none rfl rfl mmAG_l0 (fun i k => dot_S400x10000_S10000x32_S400x32_1_0_0_1_n_n.lhsIdx_val_of_single rfl i k)
    (fun i k => dot_S400x10000_S10000x32_S400x32_1_0_0_1_n_n.rhsIdx_val_of_single rfl i k) mmAG_r1 a w e q

/-! ## The payloads -/

/-- The hidden rows of a point of phase 0. -/
theorem pay2_apply (v7 : Vec Ideal S400x10000 .f32) (v8 : Vec Ideal S10000x128 .f32) (v11 : Vec Ideal S400x128 .f32)
    (v12 v14 : Vec Ideal S128x128 .f32) (v17 : Vec Ideal S1x128 .f32) (p : Fin 400) (j : Fin 128) :
    k0_pay2 (F := Ideal) v7 v8 v11 v12 v14 v17 (ix2 p j)
      = max (((∑ k : Fin 128, v11 (ix2 p k) * v12 (ix2 k j))
              + (∑ k : Fin 128, (∑ l : Fin 10000, v7 (ix2 p l) * v8 (ix2 l k)) * v14 (ix2 k j)))
            + v17 (ix2 (0 : Fin 1) j)) 0 := by
  unfold k0_pay2
  simp only [maximumf_apply, addf_apply, broadcast_apply, mmHid_apply, mmAX_apply,
    broadcastTo_1b_ab_apply, shapeCast_self]
  show max _ (Ideal.ofBits .f32 0x00000000#32) = _
  rw [Ideal.ofBits_zero_f32]

/-- The first scratch payload: g. -/
theorem pay3_apply (v7 : Vec Ideal S400x10000 .f32) (v8 : Vec Ideal S10000x128 .f32) (v11 : Vec Ideal S400x128 .f32)
    (v12 v14 : Vec Ideal S128x128 .f32) (v17 : Vec Ideal S1x128 .f32) (v23 : Vec Ideal S128x32 .f32) (p : Fin 400) (q : Fin 32) :
    k0_pay3 (F := Ideal) v7 v8 v11 v12 v14 v17 v23 (ix2 p q)
      = ∑ j : Fin 128, k0_pay2 (F := Ideal) v7 v8 v11 v12 v14 v17 (ix2 p j) * v23 (ix2 j q) := by
  unfold k0_pay3
  simp only [shapeCast_self, mmOut_apply]

/-- The second scratch payload: hw. -/
theorem pay4_apply (v7 : Vec Ideal S400x10000 .f32) (v8 : Vec Ideal S10000x128 .f32) (v11 : Vec Ideal S400x128 .f32)
    (v12 v14 : Vec Ideal S128x128 .f32) (v17 : Vec Ideal S1x128 .f32) (v29 : Vec Ideal S128x32 .f32) (v31 : Vec Ideal S1x32 .f32)
    (p : Fin 400) (q : Fin 32) :
    k0_pay4 (F := Ideal) v7 v8 v11 v12 v14 v17 v29 v31 (ix2 p q)
      = (∑ j : Fin 128, k0_pay2 (F := Ideal) v7 v8 v11 v12 v14 v17 (ix2 p j) * v29 (ix2 j q)) + v31 (ix2 (0 : Fin 1) q) := by
  unfold k0_pay4
  simp only [shapeCast_self, addf_apply, mmOut_apply, broadcastTo_1b_ab_apply]

/-- The maximum over a row of a 400 x 32 block taken from -∞: the row's supremum. -/
theorem rowMax_sup (v : FVec Ideal S400x32 .f32) (hφ : FKind.Formats .f32) (hacc : (0xFF800000#32 : BitVec 32) = 0xFF800000#32) (p : Fin 400) :
    multiReduction (F := Ideal) .maximumf [1] S400 v 0xFF800000#32 reduces_S400x32_S400 hφ hacc (ix1 p) = ⨆ k : Fin 32, v (ix2 p k) := by
  rw [Cert.LibReduceInf.multiReduction_maximumf_single]
  show (⨆ k : Fin 32, v (reduces_S400x32_S400.lift (ix1 p) k)) = _
  exact iSup_congr fun k => congrArg v (Cert.LibLastAxis.lift_row (a := 400) (b := 32) reduces_S400x32_S400 p k)

/-- The sum over a row of a 400 x 32 block taken from zero. -/
theorem rowSum_sum (v : FVec Ideal S400x32 .f32) (hφ : FKind.Formats .f32) (hacc : (0x00000000#32 : BitVec 32) = 0x00000000#32) (p : Fin 400) :
    multiReduction (F := Ideal) .add [1] S400 v 0x00000000#32 reduces_S400x32_S400 hφ hacc (ix1 p) = ∑ k : Fin 32, v (ix2 p k) :=
  Cert.LibLastAxis.rowSum_apply (a := 400) (b := 32) v reduces_S400x32_S400 hφ hacc p

/-- A per-row quantity `w` of a 400 x 32 block, made a column and spread along the row, reads `w` at the row. -/
theorem spread_apply (w : FVec Ideal S400 .f32) (p : Fin 400) (c : Fin 32) :
    broadcastTo S400x32 (shapeCast S400x1 w shapeCasts_S400_S400x1) broadcasts_S400x1_S400x32 (ix2 p c) = w (ix1 p) := by
  rw [broadcastTo_a1_ab_apply, shapeCast_a_a1_apply]

/-- The body's log-softmax of a 400 x 32 block `o`, at `(p, q)`: the specification's log-softmax of row `p`. -/
theorem lsm_apply (o : FVec Ideal S400x32 .f32) (hφ : FKind.Formats .f32) (hm : (0xFF800000#32 : BitVec 32) = 0xFF800000#32)
    (hs : (0x00000000#32 : BitVec 32) = 0x00000000#32) (p : Fin 400) (q : Fin 32) :
    subf (subf o (broadcastTo S400x32 (shapeCast S400x1 (multiReduction (F := Ideal) .maximumf [1] S400 o 0xFF800000#32 reduces_S400x32_S400 hφ hm) shapeCasts_S400_S400x1) broadcasts_S400x1_S400x32))
      (broadcastTo S400x32 (log (shapeCast S400x1 (multiReduction (F := Ideal) .add [1] S400
        (exp (subf o (broadcastTo S400x32 (shapeCast S400x1 (multiReduction (F := Ideal) .maximumf [1] S400 o 0xFF800000#32 reduces_S400x32_S400 hφ hm) shapeCasts_S400_S400x1) broadcasts_S400x1_S400x32)))
        0x00000000#32 reduces_S400x32_S400 hφ hs) shapeCasts_S400_S400x1)) broadcasts_S400x1_S400x32) (ix2 p q)
      = Cert.ChebSpec.logSoftmax (fun q' => o (ix2 p q')) q := by
  rw [subf_apply, subf_apply, spread_apply, rowMax_sup, broadcastTo_a1_ab_apply]
  show _ - Ideal.log (shapeCast S400x1 _ shapeCasts_S400_S400x1 (ix2 p (0 : Fin 1))) = _
  rw [shapeCast_a_a1_apply, rowSum_sum]
  unfold Cert.ChebSpec.logSoftmax
  refine congrArg (fun z => (o (ix2 p q) - ⨆ k : Fin 32, o (ix2 p k)) - Ideal.log z) (Finset.sum_congr rfl fun k _ => ?_)
  show Ideal.exp (o (ix2 p k) - broadcastTo S400x32 (shapeCast S400x1 _ shapeCasts_S400_S400x1) broadcasts_S400x1_S400x32 (ix2 p k)) = _
  rw [spread_apply, rowMax_sup]

/-- The pre-softmax row entries of a point of phase 1. -/
def logit (v9 : Vec Ideal S400x32 .f32) (v10 : Vec Ideal S400x10000 .f32) (v11 : Vec Ideal S10000x32 .f32) (p : Fin 400) (q : Fin 32) : EReal :=
  v9 (ix2 p q) + ∑ l : Fin 10000, v10 (ix2 p l) * v11 (ix2 l q)

/-- The output payload: the log-softmax of the point's rows. -/
theorem pay1_apply (v9 : Vec Ideal S400x32 .f32) (v10 : Vec Ideal S400x10000 .f32) (v11 : Vec Ideal S10000x32 .f32) (p : Fin 400) (q : Fin 32) :
    k0_pay1 (F := Ideal) v9 v10 v11 (ix2 p q) = Cert.ChebSpec.logSoftmax (logit v9 v10 v11 p) q := by
  unfold k0_pay1
  refine (lsm_apply _ _ _ _ p q).trans ?_
  refine congrArg (fun o => Cert.ChebSpec.logSoftmax o q) (funext fun q' => ?_)
  rw [addf_apply, mmAG_apply]
  rfl

end Cert.KernelIdeal.Pay

end
-- ==== Proof.LibLoads.lean ====
/-
  What a load reads of a whole buffer whose contents are known: through the whole-shape rectangle the contents
  themselves, through a unit-stride rectangle at offsets `off` the contents at `off + ` the position in the rectangle.
-/
import Idealize.ShloMosaic.Lib.Pipeline.Value
import Idealize.ShloMosaic.Lib.Pipeline.Frame

noncomputable section

namespace Idealize.ShloMosaic.ValueIdx

open Idealize.ShloMosaic

variable {sig : RefSig} {κ : Kind} {sp : Space} {S : Shape} {e : EltTy} {Val : EltTy → Type}

/-- A load of the whole shape from a whole buffer holding `X` reads `X`. -/
theorem readAt_whole_unread (mr : Memref sig κ sp S e) (h : mr.IsWhole) {off : Fin S.rank → Nat} (hz : off = fun _ => 0)
    (inb : ∀ a, off a + S.size a ≤ S.size a) (X : S.Idx → Val e) :
    View.readAt Val mr.view (Rect.unit off S.size inb).toLoadRect (h.unread X) = X := by
  rw [View.readAt_eq_ld, h.read_unread]
  exact View.ld_unit_zero hz inb X

/-- A load through a unit-stride rectangle from a whole buffer holding `X` reads, at position `y`, the entry of `X` at
    the rectangle's offsets plus `y`. -/
theorem readAt_unit_unread_apply (mr : Memref sig κ sp S e) (h : mr.IsWhole) (off size : Fin S.rank → Nat)
    (inb : ∀ a, off a + size a ≤ S.size a) (X : S.Idx → Val e) (y : (Rect.unit off size inb).shape.Idx) (z : S.Idx)
    (hz : ∀ a, (z a).val = off a + (y a).val) :
    View.readAt Val mr.view (Rect.unit off size inb).toLoadRect (h.unread X) y = X z := by
  rw [View.readAt_eq_ld, h.read_unread]
  show X ((Rect.unit off size inb).emb y) = X z
  refine congrArg X (funext fun a => Fin.ext ?_)
  show off a + 1 * (y a).val = (z a).val
  rw [hz a, Nat.one_mul]

end Idealize.ShloMosaic.ValueIdx

end
-- ==== Proof.Rows.lean ====
/-
  What the scratch arrays and the output blocks hold at an index, as functions of the argument arrays: entry (l, q) of
  the complete first scratch array is Σ_j hidden (l, j) W2_1 (j, q), of the second Σ_j hidden (l, j) W2_0 (j, q) + b2 q,
  and entry (p, q) of the block stored at point t of phase 1 is the log-softmax, along its row, of
  (hw + adj g) at row 400 (49 - t) + p.
-/
import proofs.«111254_g31370441130263_cont_sun_m_318_18_alg».proof.Proof.Blocks
import proofs.«111254_g31370441130263_cont_sun_m_318_18_alg».proof.Proof.Payload
import proofs.«111254_g31370441130263_cont_sun_m_318_18_alg».proof.Proof.LibLoads

set_option maxRecDepth 16384

noncomputable section

namespace Cert.KernelIdeal.KVal

open Cert.KernelIdeal Cert.KernelIdeal.Gen Cert.KernelIdeal.Hand Cert.KernelIdeal.Pay
open Idealize.ShloMosaic Idealize.ShloMosaic.TcCoe Idealize.ShloMosaic.ValueIdx Idealize.SL.Sem
open scoped BigOperators

variable (m : (ℓ : Loc nD τ sig) → Buf (Elt Ideal) ℓ)

theorem zero2 : (![0, 0] : Fin 2 → ℕ) = fun _ => 0 := by
  funext a; match a with | ⟨0, _⟩ => rfl | ⟨1, _⟩ => rfl

/-- The hidden rows of point `t` of phase 0, at `(p, j)`: the specification's hidden entry of row `400 t + p`. -/
theorem hidden_rows (c : Dev nD) (t : Fin cfg0.N) (h : t.val < 25) (p : Fin 400) (j : Fin 128) (r : Fin 10000)
    (hr : r.val = 400 * t.val + p.val) :
    k0_pay2 (F := Ideal) (iblk m c 0 t) (iblk m c 1 t)
        (View.readAt (Elt Ideal) (ms1 t).view (Rect.unit (s := S10000x128) (k0_off1 (grid0.coords t)) S400x128.size (k0_off1_inb (grid0.coords t) ((hcondA t).mpr h))).toLoadRect ((hs1 t).unread (iblk m c 1 t)))
        (iblk m c 2 t) (iblk m c 3 t) (iblk m c 4 t) (ix2 p j)
      = Cert.ChebSpec.hidden (aX m c) (aA m c) (aW10 m c) (aW11 m c) (ab1 m c) r j := by
  rw [pay2_apply]
  unfold Cert.ChebSpec.hidden
  have hb : r.val = 400 * blkNo t + p.val := by unfold blkNo; rw [if_pos h]; exact hr
  have hx : ∀ k : Fin 128, View.readAt (Elt Ideal) (ms1 t).view (Rect.unit (s := S10000x128) (k0_off1 (grid0.coords t)) S400x128.size (k0_off1_inb (grid0.coords t) ((hcondA t).mpr h))).toLoadRect ((hs1 t).unread (iblk m c 1 t)) (ix2 p k) = aX m c r k := fun k => by
    rw [readAt_unit_unread_apply (ms1 t) (hs1 t) (k0_off1 (grid0.coords t)) S400x128.size
        (k0_off1_inb (grid0.coords t) ((hcondA t).mpr h)) (iblk m c 1 t) (ix2 p k) (ix2 r k) (fun a => by
      have e := congrFun (off1_eq t h) a
      rw [e]
      match a with
      | ⟨0, _⟩ => exact hr
      | ⟨1, _⟩ => exact (Nat.zero_add _).symm), blk1_apply]
  simp only [hx, blk0_apply m c t p _ r hb, blk1_apply, blk2_apply, blk3_apply, blk4_apply]

/-- Point `t`'s rows of g. -/
theorem gRows_apply (c : Dev nD) (t : Fin cfg0.N) (h : t.val < 25) (p : Fin 400) (q : Fin 32) (r : Fin 10000)
    (hr : r.val = 400 * t.val + p.val) :
    gRows m c t h (ix2 p q)
      = ∑ j : Fin 128, Cert.ChebSpec.hidden (aX m c) (aA m c) (aW10 m c) (aW11 m c) (ab1 m c) r j * aW21 m c j q := by
  unfold gRows payG
  rw [readAt_whole_unread (ms0 t) (hs0 t) zero2, readAt_whole_unread (ms1 t) (hs1 t) zero2, readAt_whole_unread (ms2 t) (hs2 t) zero2,
    readAt_whole_unread (ms3 t) (hs3 t) zero2, readAt_whole_unread (ms4 t) (hs4 t) zero2, readAt_whole_unread (ms6 t) (hs6 t) zero2]
  rw [pay3_apply]
  refine Finset.sum_congr rfl fun j _ => ?_
  rw [hidden_rows m c t h p j r hr, blk6_apply]

/-- Point `t`'s rows of hw. -/
theorem hRows_apply (c : Dev nD) (t : Fin cfg0.N) (h : t.val < 25) (p : Fin 400) (q : Fin 32) (r : Fin 10000)
    (hr : r.val = 400 * t.val + p.val) :
    hRows m c t h (ix2 p q)
      = (∑ j : Fin 128, Cert.ChebSpec.hidden (aX m c) (aA m c) (aW10 m c) (aW11 m c) (ab1 m c) r j * aW20 m c j q) + ab2 m c q := by
  unfold hRows payH
  rw [readAt_whole_unread (ms0 t) (hs0 t) zero2, readAt_whole_unread (ms1 t) (hs1 t) zero2, readAt_whole_unread (ms2 t) (hs2 t) zero2,
    readAt_whole_unread (ms3 t) (hs3 t) zero2, readAt_whole_unread (ms4 t) (hs4 t) zero2, readAt_whole_unread (ms5 t) (hs5 t) zero2,
    readAt_whole_unread (ms7 t) (hs7 t) zero2]
  rw [pay4_apply, blk7_apply]
  refine congrArg (· + ab2 m c q) (Finset.sum_congr rfl fun j _ => ?_)
  rw [hidden_rows m c t h p j r hr, blk5_apply]

/-- The complete g at `(l, q)`. -/
theorem gSpec_apply (c : Dev nD) (l : Fin 10000) (q : Fin 32) :
    gSpec m c (ix2 l q)
      = ∑ j : Fin 128, Cert.ChebSpec.hidden (aX m c) (aA m c) (aW10 m c) (aW11 m c) (ab1 m c) l j * aW21 m c j q :=
  gRows_apply m c (ptOf (ix2 l q)) (ptOf_lt _) ⟨l.val % 400, Nat.mod_lt _ (by norm_num)⟩ q l
    (by show l.val = 400 * (l.val / 400) + l.val % 400; omega)

/-- The complete hw at `(l, q)`. -/
theorem hSpec_apply (c : Dev nD) (l : Fin 10000) (q : Fin 32) :
    hSpec m c (ix2 l q)
      = (∑ j : Fin 128, Cert.ChebSpec.hidden (aX m c) (aA m c) (aW10 m c) (aW11 m c) (ab1 m c) l j * aW20 m c j q) + ab2 m c q :=
  hRows_apply m c (ptOf (ix2 l q)) (ptOf_lt _) ⟨l.val % 400, Nat.mod_lt _ (by norm_num)⟩ q l
    (by show l.val = 400 * (l.val / 400) + l.val % 400; omega)

/-- The block stored at point `t` of phase 1, at `(p, q)`: the log-softmax of the kernel's logits of row `400 (49 - t) + p`. -/
theorem oRows_apply (c : Dev nD) (t : Fin cfg0.N) (h : 25 ≤ t.val) (p : Fin 400) (q : Fin 32) (r : Fin 10000)
    (hr : r.val = 400 * (49 - t.val) + p.val) :
    oRows m c t h (ix2 p q)
      = Cert.ChebSpec.logSoftmax (Cert.ChebSpec.logitsKer (aX m c) (aA m c) (aW10 m c) (aW11 m c) (ab1 m c) (aW20 m c) (aW21 m c) (ab2 m c) r) q := by
  unfold oRows payO
  rw [pay1_apply]
  refine congrArg (fun o => Cert.ChebSpec.logSoftmax o q) (funext fun q' => ?_)
  unfold logit Cert.ChebSpec.logitsKer
  have hb : r.val = 400 * blkNo t + p.val := by unfold blkNo; rw [if_neg (by omega)]; exact hr
  rw [readAt_unit_unread_apply scH (Memref.isWhole_whole _) (k0_off3 (grid0.coords t)) S400x32.size
      (k0_off3_inb (grid0.coords t) ((hcondB t).mpr h)) (hSpec m c) (ix2 p q') (ix2 r q') (fun a => by
      have e := congrFun (off3_eq t h) a
      rw [e]
      match a with
      | ⟨0, _⟩ => exact hr
      | ⟨1, _⟩ => exact (Nat.zero_add _).symm), hSpec_apply,
    readAt_whole_unread (ms0 t) (hs0 t) zero2, readAt_whole_unread scG (Memref.isWhole_whole _) zero2]
  simp only [blk0_apply m c t p _ r hb, gSpec_apply]

end Cert.KernelIdeal.KVal

end
-- ==== Proof.KI.Obligation.lean ====
/-
  The body obligation of the pipeline and its run.  At a point of phase 0 the body is handed the two scratch arrays with
  their first 400 t rows final and hands them back with 400 (t + 1) rows final, the output window's buffer untouched; at
  a point of phase 1 both arrays are complete, stay so, and the output window's buffer ends at the point's block.  Before
  the first point nothing is asked of the scratch arrays, after the last nothing is kept of them.
-/
import proofs.«111254_g31370441130263_cont_sun_m_318_18_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem Phi_castSucc (c : Dev nD) (t : Fin cfg0.N) : (dats m 0 c).Φ t.castSucc = PhiT m c t.val := by
  dsimp only [dats]; simp only [Fin.coe_castSucc]
theorem Phi_succ (c : Dev nD) (t : Fin cfg0.N) : (dats m 0 c).Φ t.succ = PhiT m c (t.val + 1) := by
  dsimp only [dats]; simp only [Fin.val_succ]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 3200000 in
/-- The body at any point: the phase is read off the point's number; the inputs' buffers hold their blocks; the invariant
    hands the body the scratch arrays and takes them back one point further. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [Phi_castSucc, Phi_succ]
  have hN : t.val < 50 := lt_of_lt_of_eq t.isLt N50
  by_cases h0 : t.val < 25
  · -- phase 0
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [live6 t], after_6]
      rw [show (dats m 0 c).leavesExact 7 t = owns (c : Thread nD τ) (ms7 t) fullShare ((dats m 0 c).after 7 t) from by
        unfold Dat.leavesExact; rw [live7 t], after_7]
      rw [Dat.leavesExact_idle (dats m 0 c) 8 t (idle8 t h0) (noFlush8 t h0)]
      unfold PhiT
      iintro ⟨⟨⟨%dg, %dh, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ _ _ ((hcondA t).mpr h0) (fun hb => absurd ((hcondB t).mp hb) (by omega)) (iblk m c 0 t) (iblk m c 1 t) (iblk m c 2 t) (iblk m c 3 t) (iblk m c 4 t) (iblk m c 5 t) (iblk m c 6 t) (iblk m c 7 t) ((dats m 0 c).before 8 t d8) dg dh) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _, _
          isplitr
          · ipureintro; exact Inv_step m c t h0 dg dh hI
          isplitl [HS0]
          · unfold owns; iexists _; isplitr
            swap; · iexact HS0
            ipureintro; rfl
          unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
  · -- phase 1
      have h1 : 25 ≤ t.val := Nat.le_of_not_lt h0
      rw [show (dats m 0 c).leavesExact 0 t = owns (c : Thread nD τ) (ms0 t) fullShare ((dats m 0 c).after 0 t) from by
        unfold Dat.leavesExact; rw [live0 t], after_0]
      rw [show (dats m 0 c).leavesExact 1 t = owns (c : Thread nD τ) (ms1 t) fullShare ((dats m 0 c).after 1 t) from by
        unfold Dat.leavesExact; rw [live1 t], after_1]
      rw [show (dats m 0 c).leavesExact 2 t = owns (c : Thread nD τ) (ms2 t) fullShare ((dats m 0 c).after 2 t) from by
        unfold Dat.leavesExact; rw [live2 t], after_2]
      rw [show (dats m 0 c).leavesExact 3 t = owns (c : Thread nD τ) (ms3 t) fullShare ((dats m 0 c).after 3 t) from by
        unfold Dat.leavesExact; rw [live3 t], after_3]
      rw [show (dats m 0 c).leavesExact 4 t = owns (c : Thread nD τ) (ms4 t) fullShare ((dats m 0 c).after 4 t) from by
        unfold Dat.leavesExact; rw [live4 t], after_4]
      rw [show (dats m 0 c).leavesExact 5 t = owns (c : Thread nD τ) (ms5 t) fullShare ((dats m 0 c).after 5 t) from by
        unfold Dat.leavesExact; rw [live5 t], after_5]
      rw [show (dats m 0 c).leavesExact 6 t = owns (c : Thread nD τ) (ms6 t) fullShare ((dats m 0 c).after 6 t) from by
        unfold Dat.leavesExact; rw [live6 t], after_6]
      rw [show (dats m 0 c).leavesExact 7 t = owns (c : Thread nD τ) (ms7 t) fullShare ((dats m 0 c).after 7 t) from by
        unfold Dat.leavesExact; rw [live7 t], after_7]
      rw [show (dats m 0 c).leavesExact 8 t = owns (c : Thread nD τ) (ms8 t) fullShare ((dats m 0 c).after 8 t) from by
        unfold Dat.leavesExact; rw [live8 t h1], after_8, oBlock_of_ge m c t h1]
      unfold PhiT
      iintro ⟨⟨⟨%dg, %dh, %hI, HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      obtain ⟨rfl, rfl⟩ := Inv_full m c t.val h1 dg dh hI
      iapply ((runB c (grid0.coords t) _ _ _ _ _ _ _ _ _ _ _ _ _ _ _ _ _ _ _ _ _ _ (fun ha => absurd ((hcondA t).mp ha) (by omega)) ((hcondB t).mpr h1) (iblk m c 0 t) (iblk m c 1 t) (iblk m c 2 t) (iblk m c 3 t) (iblk m c 4 t) (iblk m c 5 t) (iblk m c 6 t) (iblk m c 7 t) ((dats m 0 c).before 8 t d8) (gSpec m c) (hSpec m c)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HS0 HS1 Hg]
      · isplitl [HS0 HS1]
        · iexists _, _
          isplitr
          · ipureintro; exact Inv_of_full m c (t.val + 1)
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; unfold pieceO oRows; exact read_writes_whole_block _ _ _

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no row is asked to be final yet. -/
theorem hin (c : Dev nD) : Pipeline.ΦA spec0 c ⊢ (dats m 0 c).Φ 0 := by
  rw [show (dats m 0 c).Φ 0 = PhiT m c 0 from rfl, PhiA_eq]; unfold PhiT
  iintro ⟨⟨⟨%dg, HS0⟩, ⟨%dh, HS1⟩⟩, Hg⟩
  isplitl [HS0 HS1]
  · iexists dg, dh
    isplitr
    · ipureintro; exact Inv_zero m c dg dh
    isplitl [HS0]; · iexact HS0
    iexact HS1
  iexact Hg

/-- After the last point the invariant gives the scratch arrays back at whatever they hold. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]; unfold PhiT
  iintro ⟨⟨%dg, %dh, -, HS0, HS1⟩, Hg⟩
  isplitl [HS0 HS1]
  · isplitl [HS0]
    · iexists _; iexact HS0
    iexists _; iexact HS1
  iexact Hg

set_option backward.isDefEq.respectTransparency.types false in
/-- At the compiled mesh, for any values, from any memory with zero counters: every weakly fair execution of @main on the
    TensorCores terminates, and every final state has every array of the pipeline at what the library computes from the
    proof data and every other unscoped buffer at its region-entry contents. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Final.lean ====
/-
  The result array after the run.  Phase 1 writes the output blocks back one per point, block 49 - t at point t, so the
  25 blocks tile the 10000 rows; each is the log-softmax of the kernel's logits on its rows.  Hence the whole array is
  that function of the argument arrays, and the run ends with the result there and the arguments unchanged.
-/
import proofs.«111254_g31370441130263_cont_sun_m_318_18_alg».proof.Proof.Rows
import proofs.«111254_g31370441130263_cont_sun_m_318_18_alg».proof.Proof.KI.Obligation

set_option maxRecDepth 16384

noncomputable section

namespace Cert.KernelIdeal.KVal

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ) (ρ : Dev nD → PrngReg)

/-- The kernel's result at row `r`, column `q`. -/
def outAt (c : Dev nD) (r : Fin 10000) (q : Fin 32) : EReal :=
  Cert.ChebSpec.logSoftmax (Cert.ChebSpec.logitsKer (aX m c) (aA m c) (aW10 m c) (aW11 m c) (ab1 m c) (aW20 m c) (aW21 m c) (ab2 m c) r) q

/-- The kernel's result array. -/
def outArr (c : Dev nD) : S10000x32.Idx → EReal := fun y => outAt m c ⟨(y 0).val, idx2_lt0 y⟩ ⟨(y 1).val, idx2_lt1 y⟩

theorem outArr_apply (c : Dev nD) (r : Fin 10000) (q : Fin 32) : outArr m c (ix2 r q) = outAt m c r q := rfl

/-- What a point of phase 1 writes back is its block of the result array. -/
theorem flushed_eq (c : Dev nD) (t : Fin cfg0.N) (hf : (cfg0.win 8).flush t = true) :
    (dats m 0 c).flushed 8 t = ((cfg0.win 8).blk t).view.read (Elt Ideal) (outArr m c) := by
  have h : 25 ≤ t.val := by
    by_contra hn
    rw [noFlush8 t (by omega)] at hf
    exact Bool.false_ne_true hf
  have hN : t.val < 50 := lt_of_lt_of_eq t.isLt N50
  show (cfg0.win 8).cut (grid0.coords t) ((dats m 0 c).after 8 t) = _
  rw [after_8, oBlock_of_ge m c t h]
  funext y
  obtain ⟨p, q, rfl⟩ : ∃ (p : Fin 400) (q : Fin 32), y = ix2 p q := ⟨y 0, y 1, eq_ix2 y⟩
  show oRows m c t h (ix2 p q) = outArr m c (((cfg0.win 8).blk t).view.emb (ix2 p q))
  have e : ((cfg0.win 8).blk t).view.emb (ix2 p q) = (ix2 (⟨400 * (49 - t.val) + p.val, by omega⟩ : Fin 10000) q : S10000x32.Idx) :=
    funext fun a => Fin.ext (by
      match a with
      | ⟨0, _⟩ =>
        show win0_8.index t (0 : Fin 2) * 400 + 1 * p.val = 400 * (49 - t.val) + p.val
        rw [(idx8 t).1, if_neg (by omega)]; omega
      | ⟨1, _⟩ =>
        show win0_8.index t (1 : Fin 2) * 32 + 1 * q.val = q.val
        rw [(idx8 t).2]; omega)
  rw [e, outArr_apply]
  exact oRows_apply m c t h p q _ rfl

/-- An index of the result array is in point `t`'s block iff each coordinate is in the block's range on its axis. -/
theorem mem_blk8 (t : Fin cfg0.N) (i : S10000x32.Idx) :
    i ∈ ((cfg0.win 8).blk t).view.set ↔ ∀ a : Fin 2, win0_8.index t a * S400x32.size a ≤ (i a).val ∧ (i a).val < win0_8.index t a * S400x32.size a + S400x32.size a := by
  show i ∈ ((View.whole main_v0).slice (win0_8.rect t)).set ↔ _
  rw [View.set_slice_whole, Rect.mem_set_unit]
  exact Iff.rfl

/-- Every row is written back: row `r` by point `49 - r / 400`. -/
theorem covered (i : S10000x32.Idx) : ∃ t : Fin cfg0.N, (cfg0.win 8).flush t = true ∧ i ∈ ((cfg0.win 8).blk t).view.set := by
  have hi0 : (i 0).val < 10000 := idx2_lt0 i
  have hi1 : (i 1).val < 32 := idx2_lt1 i
  refine ⟨⟨49 - (i 0).val / 400, by rw [N50]; omega⟩, flush8 _ (by show 25 ≤ 49 - (i 0).val / 400; omega), ?_⟩
  rw [mem_blk8]
  intro a
  match a with
  | ⟨0, _⟩ =>
    show win0_8.index _ (0 : Fin 2) * 400 ≤ (i 0).val ∧ (i 0).val < win0_8.index _ (0 : Fin 2) * 400 + 400
    rw [(idx8 _).1, if_neg (by show ¬ (49 - (i 0).val / 400 < 25); omega)]
    show (49 - (49 - (i 0).val / 400)) * 400 ≤ (i 0).val ∧ (i 0).val < (49 - (49 - (i 0).val / 400)) * 400 + 400
    omega
  | ⟨1, _⟩ =>
    show win0_8.index _ (1 : Fin 2) * 32 ≤ (i 1).val ∧ (i 1).val < win0_8.index _ (1 : Fin 2) * 32 + 32
    rw [(idx8 _).2]; omega

/-- The result array after the run. -/
theorem final (c : Dev nD) : (dats m 0 c).arrAt 8 cfg0.N = outArr m c :=
  (dats m 0 c).arrAt_eq_of_cover 8 (outArr m c) (fun t hf => flushed_eq m c t hf) covered

/-- Every weakly fair execution of the kernel's program terminates with the result array at `outArr` and the arguments
    unchanged. -/
theorem run : θ_run defs (onTc (τ := τ) (main (F := Ideal))) ⟨m, fun _ => 0, ρ⟩ (fun r => ∀ c : Dev nD,
      r.2.mem ((c.tc : Thread nD τ).loc main_v0) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (Cert.KernelIdeal.Hand.run_main m ρ)

end Cert.KernelIdeal.KVal

end
-- ==== Proof.RefValue.lean ====
import proofs.«111254_g31370441130263_cont_sun_m_318_18_alg».proof.Proof.RefReadP
import proofs.«111254_g31370441130263_cont_sun_m_318_18_alg».proof.Proof.Spec
import proofs.«111254_g31370441130263_cont_sun_m_318_18_alg».proof.Proof.LibReduceInf
import proofs.«111254_g31370441130263_cont_sun_m_318_18_alg».proof.Proof.LibLastAxis

/-!
  The reference program's result, read at an index, as the specification's function of its eight argument arrays.

  The reference computes, at row `r` and column `q`, the log-softmax of the row `r` of
  `(h·W2_0 + (adj·h)·W2_1) + b2` with `h = max ((x·W1_0 + (adj·x)·W1_1) + b1) 0`: each matrix product is a
  finite sum over the contracted index, each broadcast reads its operand at the index with the new axis dropped, and
  the row maximum taken from `-∞` is the supremum of the row (the maximum with a further `-∞` changes nothing).
-/

noncomputable section

namespace Cert.ReferenceIdeal.RefValue

open Cert.ReferenceIdeal Cert.ReferenceIdeal.Gen Cert.ReferenceIdeal.ReadP
open Idealize.ShloMosaic Idealize.ShloMosaic.ValueIdx

/-! ## A row maximum on the host -/

/-- The host's reduce with a maximum body over axis 1 of an `[a, b]` array, from `-∞`, read at row `p`: the supremum
    over the columns. -/
theorem hostRowMax_apply {a b : ℕ} (x : FVec Ideal ⟨2, ![a, b]⟩ .f32)
    (h' : (⟨2, ![a, b]⟩ : Shape).ReducesTo [1] ⟨1, ![a]⟩) (hred : (⟨2, ![a, b]⟩ : Shape).Reduces [1] ⟨1, ![a]⟩)
    (hu : 0 < (⟨0, ![]⟩ : Shape).numel) (p : Fin a) :
    Host.reduce (FloatOps.maximumf (F := Ideal) (φ := .f32)) x (constant (F := Ideal) ⟨0, ![]⟩ .f32 0xFF800000#32) h' hu (ix1 p)
      = ⨆ k : Fin b, x (ix2 p k) := by
  rw [Host.reduce_eq_fold_single FloatOps.maximumf x _ h' hred hu]
  show Finset.fold _ (Ideal.ofBits .f32 0xFF800000#32) _ _ = _
  rw [Cert.LibReduceInf.ofBits_negInf_f32,
    Cert.LibReduceInf.fold_eq_sup (FloatOps.maximumf (F := Ideal) (φ := .f32)) (fun _ _ => rfl), Finset.sup_univ_eq_iSup]
  exact iSup_congr fun k => congrArg x (Cert.LibLastAxis.lift_row hred p k)

theorem reduces_row : S10000x32.Reduces [1] S10000 := by decide

/-! ## The index maps of the reference's operations, at an index given by its coordinates -/

section Idx
variable (r : Fin 10000) (j : Fin 128) (q : Fin 32) (k : Fin 128) (l : Fin 10000) (p : Fin 32)

theorem lidx0 : lidx_main_v0 (ix2 r j) k = ix2 r k :=
  funext fun a => Fin.ext (by match a with | ⟨0, _⟩ => rfl | ⟨1, _⟩ => rfl)
theorem ridx0 : ridx_main_v0 (ix2 r j) k = ix2 k j :=
  funext fun a => Fin.ext (by match a with | ⟨0, _⟩ => rfl | ⟨1, _⟩ => rfl)
theorem lidx1 : lidx_main_v1 (ix2 r j) l = ix2 r l :=
  funext fun a => Fin.ext (by match a with | ⟨0, _⟩ => rfl | ⟨1, _⟩ => rfl)
theorem ridx1 : ridx_main_v1 (ix2 r j) l = ix2 l j :=
  funext fun a => Fin.ext (by match a with | ⟨0, _⟩ => rfl | ⟨1, _⟩ => rfl)
theorem lidx2 : lidx_main_v2 (ix2 r j) k = ix2 r k :=
  funext fun a => Fin.ext (by match a with | ⟨0, _⟩ => rfl | ⟨1, _⟩ => rfl)
theorem ridx2 : ridx_main_v2 (ix2 r j) k = ix2 k j :=
  funext fun a => Fin.ext (by match a with | ⟨0, _⟩ => rfl | ⟨1, _⟩ => rfl)
theorem idx45 : idx_main_v4 (idx_main_v5 (ix2 r j)) = ix1 j :=
  funext fun a => Fin.ext (by match a with | ⟨0, _⟩ => rfl)
theorem lidx8 : lidx_main_v8 (ix2 r q) k = ix2 r k :=
  funext fun a => Fin.ext (by match a with | ⟨0, _⟩ => rfl | ⟨1, _⟩ => rfl)
theorem ridx8 : ridx_main_v8 (ix2 r q) k = ix2 k q :=
  funext fun a => Fin.ext (by match a with | ⟨0, _⟩ => rfl | ⟨1, _⟩ => rfl)
theorem lidx9 : lidx_main_v9 (ix2 r j) l = ix2 r l :=
  funext fun a => Fin.ext (by match a with | ⟨0, _⟩ => rfl | ⟨1, _⟩ => rfl)
theorem ridx9 : ridx_main_v9 (ix2 r j) l = ix2 l j :=
  funext fun a => Fin.ext (by match a with | ⟨0, _⟩ => rfl | ⟨1, _⟩ => rfl)
theorem lidx10 : lidx_main_v10 (ix2 r q) k = ix2 r k :=
  funext fun a => Fin.ext (by match a with | ⟨0, _⟩ => rfl | ⟨1, _⟩ => rfl)
theorem ridx10 : ridx_main_v10 (ix2 r q) k = ix2 k q :=
  funext fun a => Fin.ext (by match a with | ⟨0, _⟩ => rfl | ⟨1, _⟩ => rfl)
theorem idx1213 : idx_main_v12 (idx_main_v13 (ix2 r q)) = ix1 q :=
  funext fun a => Fin.ext (by match a with | ⟨0, _⟩ => rfl)
theorem idxc34 : idx_main_call1_v3 (idx_main_call1_v4 (ix2 r q)) = ix1 r :=
  funext fun a => Fin.ext (by match a with | ⟨0, _⟩ => rfl)
theorem idxc810 : idx_main_call1_v8 (idx_main_call1_v10 (ix2 r q)) = ix1 r :=
  funext fun a => Fin.ext (by match a with | ⟨0, _⟩ => rfl)
theorem idxc7 : idx_main_call1_v7 (ix1 r) p = ix2 r p :=
  funext fun a => Fin.ext (by match a with | ⟨0, _⟩ => rfl | ⟨1, _⟩ => rfl)

end Idx

/-! ## The stages of the reference at an index -/

section Stages

variable (x0 : (⟨S10000x128, .f32⟩ : BufTy).Contents (Elt Ideal)) (x1 : (⟨S10000x10000, .f32⟩ : BufTy).Contents (Elt Ideal))
  (x2 x3 : (⟨S128x128, .f32⟩ : BufTy).Contents (Elt Ideal)) (x4 : (⟨S128, .f32⟩ : BufTy).Contents (Elt Ideal))
  (x5 x6 : (⟨S128x32, .f32⟩ : BufTy).Contents (Elt Ideal)) (x7 : (⟨S32, .f32⟩ : BufTy).Contents (Elt Ideal))

/-- The hidden layer of the reference at `(r, j)`. -/
theorem hidden_apply (r : Fin 10000) (j : Fin 128) :
    val_main_v7 (F := Ideal) x0 x1 x2 x3 x4 (ix2 r j)
      = Cert.ChebSpec.hidden (fun r k => x0 (ix2 r k)) (fun r l => x1 (ix2 r l)) (fun k j => x2 (ix2 k j))
          (fun k j => x3 (ix2 k j)) (fun j => x4 (ix1 j)) r j := by
  rw [val_main_v7_apply, val_main_v6_apply, val_main_v3_apply, val_main_v0_apply, val_main_v2_apply, val_main_v5_apply,
    val_main_v4_apply, val_main_call0_v0_apply, val_main_call0_cst_apply]
  simp only [val_main_v1_apply, lidx0, ridx0, lidx1, ridx1, lidx2, ridx2, idx45, Ideal.addf_def, Ideal.maximumf_def,
    Ideal.ofBits_def, Ideal.ofBits_zero_f32]
  rfl

/-- The second layer of the reference, in its grouping, at `(r, q)`. -/
theorem logits_apply (r : Fin 10000) (q : Fin 32) :
    val_main_v14 (F := Ideal) x0 x1 x2 x3 x4 x5 x6 x7 (ix2 r q)
      = Cert.ChebSpec.logitsRef (fun r k => x0 (ix2 r k)) (fun r l => x1 (ix2 r l)) (fun k j => x2 (ix2 k j))
          (fun k j => x3 (ix2 k j)) (fun j => x4 (ix1 j)) (fun j q => x5 (ix2 j q)) (fun j q => x6 (ix2 j q))
          (fun q => x7 (ix1 q)) r q := by
  rw [val_main_v14_apply, val_main_v11_apply, val_main_v8_apply, val_main_v10_apply, val_main_v13_apply, val_main_v12_apply]
  simp only [val_main_v9_apply, lidx8, ridx8, lidx9, ridx9, lidx10, ridx10, idx1213, hidden_apply, Ideal.addf_def]
  rfl

/-- The row maximum of the reference, broadcast back along the row, at `(r, q)`: the supremum of row `r`. -/
theorem rowmax_apply (r : Fin 10000) (q : Fin 32) :
    val_main_call1_v4 (F := Ideal) x0 x1 x2 x3 x4 x5 x6 x7 (ix2 r q)
      = ⨆ q' : Fin 32, Cert.ChebSpec.logitsRef (fun r k => x0 (ix2 r k)) (fun r l => x1 (ix2 r l)) (fun k j => x2 (ix2 k j))
          (fun k j => x3 (ix2 k j)) (fun j => x4 (ix1 j)) (fun j q => x5 (ix2 j q)) (fun j q => x6 (ix2 j q))
          (fun q => x7 (ix1 q)) r q' := by
  rw [val_main_call1_v4_apply, val_main_call1_v3_apply, idxc34, val_main_call1_v2_apply, val_main_call1_v1_apply,
    val_main_call1_cst_0_apply]
  unfold val_main_call1_v0 val_main_call1_cst
  rw [hostRowMax_apply _ reducesTo_S10000x32_S10000_d1 reduces_row h_S_ r]
  simp only [logits_apply, Ideal.maximumf_def, Ideal.ofBits_def, Cert.LibReduceInf.ofBits_negInf_f32]
  exact max_eq_right bot_le

/-- A row of the reference's logits less its maximum, at `(r, q)`. -/
theorem shifted_apply (r : Fin 10000) (q : Fin 32) :
    val_main_call1_v5 (F := Ideal) x0 x1 x2 x3 x4 x5 x6 x7 (ix2 r q)
      = Cert.ChebSpec.logitsRef (fun r k => x0 (ix2 r k)) (fun r l => x1 (ix2 r l)) (fun k j => x2 (ix2 k j))
          (fun k j => x3 (ix2 k j)) (fun j => x4 (ix1 j)) (fun j q => x5 (ix2 j q)) (fun j q => x6 (ix2 j q))
          (fun q => x7 (ix1 q)) r q
        - ⨆ q' : Fin 32, Cert.ChebSpec.logitsRef (fun r k => x0 (ix2 r k)) (fun r l => x1 (ix2 r l)) (fun k j => x2 (ix2 k j))
          (fun k j => x3 (ix2 k j)) (fun j => x4 (ix1 j)) (fun j q => x5 (ix2 j q)) (fun j q => x6 (ix2 j q))
          (fun q => x7 (ix1 q)) r q' := by
  rw [val_main_call1_v5_apply, logits_apply, rowmax_apply]
  rfl

/-- The reference's result at `(r, q)`: the log-softmax of row `r` of its logits. -/
theorem ref_apply (r : Fin 10000) (q : Fin 32) :
    val_main_v15 (F := Ideal) x0 x1 x2 x3 x4 x5 x6 x7 (ix2 r q)
      = Cert.ChebSpec.logSoftmax (Cert.ChebSpec.logitsRef (fun r k => x0 (ix2 r k)) (fun r l => x1 (ix2 r l))
          (fun k j => x2 (ix2 k j)) (fun k j => x3 (ix2 k j)) (fun j => x4 (ix1 j)) (fun j q => x5 (ix2 j q))
          (fun j q => x6 (ix2 j q)) (fun q => x7 (ix1 q)) r) q := by
  rw [val_main_v15_apply, shifted_apply, val_main_call1_v10_apply, val_main_call1_v9_apply, val_main_call1_v8_apply,
    idxc810, val_main_call1_v7_apply, val_main_call1_cst_1_apply]
  simp only [val_main_call1_v6_apply, idxc7, shifted_apply, Ideal.subf_def, Ideal.hostUnary_exp_def,
    Ideal.hostUnary_log_def, Ideal.ofBits_def, Ideal.ofBits_zero_f32, zero_add]
  rfl

end Stages

end Cert.ReferenceIdeal.RefValue

end
-- ==== Proof.Finite.lean ====
import proofs.«111254_g31370441130263_cont_sun_m_318_18_alg».proof.Pre_finite_inputs
import proofs.«111254_g31370441130263_cont_sun_m_318_18_alg».proof.Proof.LibReduceInf
import Idealize.ShloMosaic.Lib.ReduceAll
import Idealize.ShloMosaic.Lib.IdealHost
import Idealize.ShloMosaic.PureOps.Ideal.Laws

/-!
  The precondition read back: every entry of every input is a real number.

  The precondition is the conjunction, over the eight input arrays, of "every entry `x` has `|x| < +∞`". On the
  extended reals `|x| = max x (-x)`, which is `+∞` at both infinities and a real number at a real number; so the
  strict bound holds exactly at the real numbers.
-/

noncomputable section

namespace Cert.Pre_finite_inputs.Finite

open Idealize.ShloMosaic Idealize.ShloMosaic.ValueIdx

/-- The rank-0 shape has one index. -/
instance : Subsingleton (⟨0, ![]⟩ : Shape).Idx := ⟨fun a b => funext fun d => d.elim0⟩

/-- An extended real whose absolute value `max x (-x)` is below `+∞` is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- A one-bit word made from a Boolean is one exactly when the Boolean is true. -/
theorem ofBool_eq_one {b : Bool} : BitVec.ofBool b = 1#1 ↔ b = true := by cases b <;> decide

/-- If the conjunction over every entry `x` of an array of the comparison `|x| < +∞` is true, every entry is a real
    number. -/
theorem entries_real_of_all {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (j : (⟨0, ![]⟩ : Shape).Idx)
    (e : Host.reduce IntOp.andi
          (cmpf .olt (Host.absf x) (broadcastInDim (s := (⟨0, ![]⟩ : Shape)) s (![] : Fin 0 → Fin s.rank) hb
            (constant (F := Ideal) (⟨0, ![]⟩ : Shape) .f32 0x7F800000#32)))
          (constantI (⟨0, ![]⟩ : Shape) 1 1#1) h hu j = 1#1) :
    ∀ i, ∃ r : ℝ, x i = (r : EReal) := by
  intro i
  have hi := Host.reduce_andi_all _ _ h hu j e i
  have hi' : Ideal.cmp .olt (max (x i) (-(x i))) (Ideal.ofBits .f32 0x7F800000#32) = 1#1 := by
    rw [← hi]
    show _ = FloatOps.cmpf .olt (FloatOps.hostAbsf (x i))
      (broadcastInDim (s := (⟨0, ![]⟩ : Shape)) s (![] : Fin 0 → Fin s.rank) hb _ i)
    rw [broadcastInDim_scalar_apply]
    rfl
  rw [Cert.LibReduceInf.ofBits_posInf_f32] at hi'
  exact real_of_abs_lt_top (x i) (of_decide_eq_true (ofBool_eq_one.1 hi'))

variable [Cert.Pre_finite_inputs.Facts]

open Cert.Pre_finite_inputs Cert.Pre_finite_inputs.Facts

/-- The precondition gives: every entry of each of the eight inputs is a real number. -/
theorem entries_real (a0 : FVec Ideal S10000x128 .f32) (a1 : FVec Ideal S10000x10000 .f32) (a2 a3 : FVec Ideal S128x128 .f32)
    (a4 : FVec Ideal S128 .f32) (a5 a6 : FVec Ideal S128x32 .f32) (a7 : FVec Ideal S32 .f32)
    (h : Cert.Pre_finite_inputs.fn (F := Ideal) a0 a1 a2 a3 a4 a5 a6 a7 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ (∀ i, ∃ r : ℝ, a6 i = (r : EReal)) ∧ (∀ i, ∃ r : ℝ, a7 i = (r : EReal)) := by
  have h0 := congrFun h ix0
  dsimp only [Cert.Pre_finite_inputs.fn, Cert.Pre_finite_inputs.fn_part1, Cert.Pre_finite_inputs.fn_part2] at h0
  simp only [Idealize.ShloMosaic.andi, IntOp.andi_eq_one] at h0
  obtain ⟨⟨⟨⟨⟨⟨⟨e0, e1⟩, e2⟩, e3⟩, e4⟩, e5⟩, e6⟩, e7⟩ := h0
  exact ⟨entries_real_of_all a0 _ _ _ _ e0, entries_real_of_all a1 _ _ _ _ e1, entries_real_of_all a2 _ _ _ _ e2,
    entries_real_of_all a3 _ _ _ _ e3, entries_real_of_all a4 _ _ _ _ e4, entries_real_of_all a5 _ _ _ _ e5,
    entries_real_of_all a6 _ _ _ _ e6, entries_real_of_all a7 _ _ _ _ e7⟩

end Cert.Pre_finite_inputs.Finite

end
-- ==== Proof.lean ====
/-
  The fused two-layer Chebyshev graph convolution against its reference, over the extended reals.

  The kernel runs over a grid of 2 x 25 points.  Through phase 0 it computes, 400 rows at a time, the hidden layer
  h = max ((x W1_0 + (adj x) W1_1) + b1) 0 and keeps, in two scratch arrays, g = h W2_1 and hw = h W2_0 + b2; through
  phase 1 it produces, 400 rows at a time, the log-softmax along each row of hw + adj g.  The reference computes the
  log-softmax of (h W2_0 + (adj h) W2_1) + b2.  The two agree because adj (h W2_1) = (adj h) W2_1 — a re-association of
  finite sums of products, valid where every entry is a real number, which the precondition (every input finite) gives —
  and because sums may be regrouped.

  The frames of the two kernel programs are proved from the body run symbolically at a point of each phase, with the
  invariant that after n points the first 400 min(n, 25) rows of both scratch arrays hold their final values; the
  reference's frame is its run with the result dropped.  Nothing was rewritten between the kernel and its idealization.
-/
import proofs.«111254_g31370441130263_cont_sun_m_318_18_alg».proof.Defs
import proofs.«111254_g31370441130263_cont_sun_m_318_18_alg».proof.Proof.Gen.Kernel
import proofs.«111254_g31370441130263_cont_sun_m_318_18_alg».proof.Proof.Gen.KernelIdeal
import proofs.«111254_g31370441130263_cont_sun_m_318_18_alg».proof.Proof.Gen.ReferenceIdeal
import proofs.«111254_g31370441130263_cont_sun_m_318_18_alg».proof.Proof.Gen.Pre_finite_inputs
import proofs.«111254_g31370441130263_cont_sun_m_318_18_alg».proof.Proof.KB.Obligation
import proofs.«111254_g31370441130263_cont_sun_m_318_18_alg».proof.Proof.Final
import proofs.«111254_g31370441130263_cont_sun_m_318_18_alg».proof.Proof.RefValue
import proofs.«111254_g31370441130263_cont_sun_m_318_18_alg».proof.Proof.Finite
import Idealize.ShloMosaic.Adequacy
import Idealize.ShloMosaic.Init

noncomputable section

namespace Cert.Proof

open Idealize.ShloMosaic Idealize.ShloMosaic.ValueIdx Idealize.SL.Sem

theorem frame_kernel : @Cert.frame_Kernel Cert.Kernel.Gen.facts Cert.Pre_finite_inputs.Gen.facts :=
  fun m ρ _ => Cert.Kernel.Hand.frame m ρ

theorem frame_kernelIdeal : @Cert.frame_KernelIdeal Cert.KernelIdeal.Gen.facts Cert.Pre_finite_inputs.Gen.facts :=
  fun m ρ _ => Cert.KernelIdeal.Hand.frame m ρ

theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- From memories agreeing on the arguments both programs end with the same result array: the reference's is the
    log-softmax of its logits, the kernel's of its own, and the two logits agree on finite inputs. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.KVal.outArr m c, Cert.KernelIdeal.KVal.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v15_eq]
  obtain ⟨e0, e1, e2, e3, e4, e5, e6, e7⟩ := hagree c
  rw [e0, e1, e2, e3, e4, e5, e6, e7]
  obtain ⟨h0, h1, h2, h3, h4, h5, h6, h7⟩ := Cert.Pre_finite_inputs.Finite.entries_real _ _ _ _ _ _ _ _ (hpre c)
  funext y
  obtain ⟨r, q, rfl⟩ : ∃ (r : Fin 10000) (q : Fin 32), y = ix2 r q := ⟨y 0, y 1, eq_ix2 y⟩
  rw [Cert.ReferenceIdeal.RefValue.ref_apply]
  show _ = Cert.KernelIdeal.KVal.outAt m c r q
  unfold Cert.KernelIdeal.KVal.outAt
  rw [Cert.ChebSpec.logitsKer_eq_logitsRef (Cert.KernelIdeal.KVal.aX m c) (Cert.KernelIdeal.KVal.aA m c)
    (Cert.KernelIdeal.KVal.aW10 m c) (Cert.KernelIdeal.KVal.aW11 m c) (Cert.KernelIdeal.KVal.ab1 m c)
    (Cert.KernelIdeal.KVal.aW20 m c) (Cert.KernelIdeal.KVal.aW21 m c) (Cert.KernelIdeal.KVal.ab2 m c)
    (fun r k => h0 (ix2 r k)) (fun r l => h1 (ix2 r l)) (fun k j => h2 (ix2 k j)) (fun k j => h3 (ix2 k j))
    (fun j => h4 (ix1 j)) (fun j q => h5 (ix2 j q)) (fun j q => h6 (ix2 j q)) (fun q => h7 (ix1 q))]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
